-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S2048x64 : Shape := ⟨2, ![2048, 64]⟩
abbrev S1x1x2048x2048 : Shape := ⟨4, ![1, 1, 2048, 2048]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2048x64 : S_.BroadcastsInDim S2048x64 (![] : Fin 0 → Fin S2048x64.rank)
  reducesTo_S2048x64_S_d0_1 : S2048x64.ReducesTo [0, 1] S_
  bcast_S_S1x1x2048x2048 : S_.BroadcastsInDim S1x1x2048x2048 (![] : Fin 0 → Fin S1x1x2048x2048.rank)
  reducesTo_S1x1x2048x2048_S_d0_1_2_3 : S1x1x2048x2048.ReducesTo [0, 1, 2, 3] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S1024x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  main_v38

def fn_part1 {F : FTy → Type} [FloatOps F] (main_arg4 : FVec F S1024x1024 .f32) (main_arg5 : FVec F S1024x1024 .f32) (main_arg6 : FVec F S1024x1024 .f32) (main_arg7 : FVec F S1024x1024 .f32) (main_v13 : IVec S_ 1) (main_v16 : IVec S1x1x2048x2048 1) : IVec S_ 1 :=
  let main_c_5 : IVec S_ 1 := constantI S_ 1 1#1
  let main_v17 : IVec S_ 1 := (fun x v => Host.reduce IntOp.andi x v reducesTo_S1x1x2048x2048_S_d0_1_2_3 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S2x2048x1024 .f32) (main_arg1 : FVec F S2048x64 .f32) (main_arg2 : FVec F S2048x64 .f32) (main_arg3 : FVec F S1x1x2048x2048 .f32) (main_arg4 : FVec F S1024x1024 .f32) (main_arg5 : FVec F S1024x1024 .f32) (main_arg6 : FVec F S1024x1024 .f32) (main_arg7 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_v9 : FVec F S2048x64 .f32 := Host.absf main_arg2
  let main_cst_2 : FVec F S_ .f32 := constant S_ .f32 0x7F800000#32
  let main_v10 : FVec F S2048x64 .f32 := broadcastInDim S2048x64 ![] bcast_S_S2048x64 main_cst_2
  let main_v11 : IVec S2048x64 1 := cmpf .olt main_v9 main_v10
  let main_c_3 : IVec S_ 1 := constantI S_ 1 1#1
  let main_v12 : IVec S_ 1 := (fun x v => Host.reduce IntOp.andi x v reducesTo_S2048x64_S_d0_1 h_S_) main_v11 main_c_3
  let main_v13 : IVec S_ 1 := andi main_v8 main_v12
  let main_v14 : FVec F S1x1x2048x2048 .f32 := Host.absf main_arg3
  let main_cst_4 : FVec F S_ .f32 := constant S_ .f32 0x7F800000#32
  let main_v15 : FVec F S1x1x2048x2048 .f32 := broadcastInDim S1x1x2048x2048 ![] bcast_S_S1x1x2048x2048 main_cst_4
  let main_v16 : IVec S1x1x2048x2048 1 := cmpf .olt main_v14 main_v15
  fn_part1 (F := F) main_arg4 main_arg5 main_arg6 main_arg7 main_v13 main_v16
-- ==== Kernel.lean ====
abbrev S2x2048x1024 : Shape := ⟨3, ![2, 2048, 1024]⟩
abbrev S2048x64 : Shape := ⟨2, ![2048, 64]⟩
abbrev S1x1x2048x2048 : Shape := ⟨4, ![1, 1, 2048, 2048]⟩
abbrev S1024x1024 : Shape := ⟨2, ![1024, 1024]⟩
abbrev S4096x1024 : Shape := ⟨2, ![4096, 1024]⟩
abbrev S512x1024 : Shape := ⟨2, ![512, 1024]⟩
abbrev S2x2048x16x64 : Shape := ⟨4, ![2, 2048, 16, 64]⟩
abbrev S2x16x2048x64 : Shape := ⟨4, ![2, 16, 2048, 64]⟩
abbrev S1x1x2048x64 : Shape := ⟨4, ![1, 1, 2048, 64]⟩
abbrev S2x16x2048x32 : Shape := ⟨4, ![2, 16, 2048, 32]⟩
abbrev S32x2048x64 : Shape := ⟨3, ![32, 2048, 64]⟩
abbrev S1x1024x64 : Shape := ⟨3, ![1, 1024, 64]⟩
abbrev S1x2048x64 : Shape := ⟨3, ![1, 2048, 64]⟩
abbrev S1x1x1024x2048 : Shape := ⟨4, ![1, 1, 1024, 2048]⟩
abbrev S1024x64 : Shape := ⟨2, ![1024, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 49
  | .vmem => 29
  | .smem => 0
  | _ => 0

abbrev bufTy : (tb : Table) → Fin (tcTables nBuf tb) → BufTy
  | .hbm, ⟨0, _⟩ => ⟨S2x2048x1024, .f32⟩
  | .hbm, ⟨1, _⟩ => ⟨S2048x64, .f32⟩
  | .hbm, ⟨2, _⟩ => ⟨S2048x64, .f32⟩
  | .hbm, ⟨3, _⟩ => ⟨S1x1x2048x2048, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S2x2048x16x64, .f32⟩
  | .hbm, ⟨13, _⟩ => ⟨S2x16x2048x64, .f32⟩
  | .hbm, ⟨14, _⟩ => ⟨S2x2048x16x64, .f32⟩
  | .hbm, ⟨15, _⟩ => ⟨S2x16x2048x64, .f32⟩
  | .hbm, ⟨16, _⟩ => ⟨S2x2048x16x64, .f32⟩
  | .hbm, ⟨17, _⟩ => ⟨S2x16x2048x64, .f32⟩
  | .hbm, ⟨18, _⟩ => ⟨S1x1x2048x64, .f32⟩
  | .hbm, ⟨19, _⟩ => ⟨S2x16x2048x64, .f32⟩
  | .hbm, ⟨20, _⟩ => ⟨S2x16x2048x64, .f32⟩
  | .hbm, ⟨21, _⟩ => ⟨S2x16x2048x32, .f32⟩
  | .hbm, ⟨22, _⟩ => ⟨S2x16x2048x32, .f32⟩
  | .hbm, ⟨23, _⟩ => ⟨S2x16x2048x32, .f32⟩
  | .hbm, ⟨24, _⟩ => ⟨S2x16x2048x64, .f32⟩
  | .hbm, ⟨25, _⟩ => ⟨S1x1x2048x64, .f32⟩
  | .hbm, ⟨26, _⟩ => ⟨S2x16x2048x64, .f32⟩
  | .hbm, ⟨27, _⟩ => ⟨S2x16x2048x64, .f32⟩
  | .hbm, ⟨28, _⟩ => ⟨S2x16x2048x64, .f32⟩
  | .hbm, ⟨29, _⟩ => ⟨S1x1x2048x64, .f32⟩
  | .hbm, ⟨30, _⟩ => ⟨S2x16x2048x64, .f32⟩
  | .hbm, ⟨31, _⟩ => ⟨S2x16x2048x64, .f32⟩
  | .hbm, ⟨32, _⟩ => ⟨S2x16x2048x32, .f32⟩
  | .hbm, ⟨33, _⟩ => ⟨S2x16x2048x32, .f32⟩
  | .hbm, ⟨34, _⟩ => ⟨S2x16x2048x32, .f32⟩
  | .hbm, ⟨35, _⟩ => ⟨S2x16x2048x64, .f32⟩
  | .hbm, ⟨36, _⟩ => ⟨S1x1x2048x64, .f32⟩
  | .hbm, ⟨37, _⟩ => ⟨S2x16x2048x64, .f32⟩
  | .hbm, ⟨38, _⟩ => ⟨S2x16x2048x64, .f32⟩
  | .hbm, ⟨39, _⟩ => ⟨S2x16x2048x64, .f32⟩
  | .hbm, ⟨40, _⟩ => ⟨S32x2048x64, .f32⟩
  | .hbm, ⟨41, _⟩ => ⟨S32x2048x64, .f32⟩
  | .hbm, ⟨42, _⟩ => ⟨S32x2048x64, .f32⟩
  | .hbm, ⟨43, _⟩ => ⟨S32x2048x64, .f32⟩
  | .hbm, ⟨44, _⟩ => ⟨S2x16x2048x64, .f32⟩
  | .hbm, ⟨45, _⟩ => ⟨S2x2048x16x64, .f32⟩
  | .hbm, ⟨46, _⟩ => ⟨S4096x1024, .f32⟩
  | .hbm, ⟨47, _⟩ => ⟨S4096x1024, .f32⟩
  | .hbm, ⟨48, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1024x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1024x1024, .f32⟩
  | .local _ .vmem, ⟨13, _⟩ => ⟨S512x1024, .f32⟩
  | .local _ .vmem, ⟨14, _⟩ => ⟨S512x1024, .f32⟩
  | .local _ .vmem, ⟨15, _⟩ => ⟨S1x1024x64, .f32⟩
  | .local _ .vmem, ⟨16, _⟩ => ⟨S1x1024x64, .f32⟩
  | .local _ .vmem, ⟨17, _⟩ => ⟨S1x2048x64, .f32⟩
  | .local _ .vmem, ⟨18, _⟩ => ⟨S1x2048x64, .f32⟩
  | .local _ .vmem, ⟨19, _⟩ => ⟨S1x2048x64, .f32⟩
  | .local _ .vmem, ⟨20, _⟩ => ⟨S1x2048x64, .f32⟩
  | .local _ .vmem, ⟨21, _⟩ => ⟨S1x1x1024x2048, .f32⟩
  | .local _ .vmem, ⟨22, _⟩ => ⟨S1x1024x64, .f32⟩
  | .local _ .vmem, ⟨23, _⟩ => ⟨S1x1024x64, .f32⟩
  | .local _ .vmem, ⟨24, _⟩ => ⟨S512x1024, .f32⟩
  | .local _ .vmem, ⟨25, _⟩ => ⟨S512x1024, .f32⟩
  | .local _ .vmem, ⟨26, _⟩ => ⟨S1024x1024, .f32⟩
  | .local _ .vmem, ⟨27, _⟩ => ⟨S512x1024, .f32⟩
  | .local _ .vmem, ⟨28, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem4_0 : DmaSem sig := 22
abbrev cc3_sem4_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![2, 32], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc3_transform_3 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage3_0 : Fin 2 → Memref sig .tc .vmem S1x1024x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2048x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x2048x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 1 → Memref sig .tc .vmem S1x1x1024x2048 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true, false]

abbrev stage3_4 : Fin 2 → Memref sig .tc .vmem S1x1024x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  shapeCasts_S2x2048x1024_S4096x1024 : S2x2048x1024.ShapeCasts S4096x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S4096x1024_S2x2048x16x64 : S4096x1024.ShapeCasts S2x2048x16x64
  transposes_S2x2048x16x64_S2x16x2048x64_0_2_1_3 : S2x2048x16x64.Transposes [0, 2, 1, 3] S2x16x2048x64
  bcast_S2048x64_S1x1x2048x64_2_3 : S2048x64.BroadcastsInDim S1x1x2048x64 (![2, 3] : Fin 2 → Fin S1x1x2048x64.rank)
  bcast_S1x1x2048x64_S2x16x2048x64_0_1_2_3 : S1x1x2048x64.BroadcastsInDim S2x16x2048x64 (![0, 1, 2, 3] : Fin 4 → Fin S2x16x2048x64.rank)
  slices_S2x16x2048x64_S2x16x2048x32_0_0_0_0 : S2x16x2048x64.Slices ![0, 0, 0, 0] S2x16x2048x32
  slices_S2x16x2048x64_S2x16x2048x32_0_0_0_32 : S2x16x2048x64.Slices ![0, 0, 0, 32] S2x16x2048x32
  concatenates_S2x16x2048x32_S2x16x2048x32_S2x16x2048x64_d3 : Shape.Concatenates [S2x16x2048x32, S2x16x2048x32] S2x16x2048x64 3
  shapeCasts_S2x16x2048x64_S32x2048x64 : S2x16x2048x64.ShapeCasts S32x2048x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x1x1024x2048_S1x1x1024x2048_0_0_0_0 : ∀ a, (![0, 0, 0, 0] : Fin 4 → Nat) a + S1x1x1024x2048.size a ≤ S1x1x1024x2048.size a
  h_S1x1x1024x2048 : 0 < S1x1x1024x2048.numel
  shapeCasts_S1x1x1024x2048_S1024x2048 : S1x1x1024x2048.ShapeCasts S1024x2048
  reduces_S1024x2048_S1024 : S1024x2048.Reduces [1] S1024
  shapeCasts_S1024_S1024x1 : S1024.ShapeCasts S1024x1
  broadcasts_S1024x1_S1024x2048 : S1024x1.Broadcasts S1024x2048
  shapeCasts_S1024x64_S1x1024x64 : S1024x64.ShapeCasts S1x1024x64
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S4096x1024 : S2x2048x16x64.ShapeCasts S4096x1024
  shapeCasts_S4096x1024_S2x2048x1024 : S4096x1024.ShapeCasts S2x2048x1024
  dot_S512x1024_S1024x1024_S512x1024_1_1_0_0_n_n_wf : DotDims.WF S512x1024 S1024x1024 S512x1024 [1] [1] [0] [0] [] []
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .f32 = 32 ∨ (Rect.block (s := S4096x1024) S512x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S4096x1024.size a
  hwx1_2 : ∀ i : grid1.Coords, EltTy.bits .f32 = 32 ∨ (Rect.block (s := S4096x1024) S512x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .f32 = 32 ∨ (Rect.block (s := S4096x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S4096x1024.size a
  hwx2_2 : ∀ i : grid2.Coords, EltTy.bits .f32 = 32 ∨ (Rect.block (s := S4096x1024) S512x1024.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1024x64.size a ≤ S32x2048x64.size a
  hwx3_0 : ∀ i : grid3.Coords, EltTy.bits .f32 = 32 ∨ (Rect.block (s := S32x2048x64) S1x1024x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x64.size a ≤ S32x2048x64.size a
  hwx3_1 : ∀ i : grid3.Coords, EltTy.bits .f32 = 32 ∨ (Rect.block (s := S32x2048x64) S1x2048x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x64.size a ≤ S32x2048x64.size a
  hwx3_2 : ∀ i : grid3.Coords, EltTy.bits .f32 = 32 ∨ (Rect.block (s := S32x2048x64) S1x2048x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1x1024x2048.size a ≤ S1x1x2048x2048.size a
  hwx3_3 : ∀ i : grid3.Coords, EltTy.bits .f32 = 32 ∨ (Rect.block (s := S1x1x2048x2048) S1x1x1024x2048.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1024x64.size a ≤ S32x2048x64.size a
  hwx3_4 : ∀ i : grid3.Coords, EltTy.bits .f32 = 32 ∨ (Rect.block (s := S32x2048x64) S1x1024x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S4096x1024.size a
  hwx4_0 : ∀ i : grid4.Coords, EltTy.bits .f32 = 32 ∨ (Rect.block (s := S4096x1024) S512x1024.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .f32 = 32 ∨ (Rect.block (s := S1024x1024) S1024x1024.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x1024.size a ≤ S4096x1024.size a
  hwx4_2 : ∀ i : grid4.Coords, EltTy.bits .f32 = 32 ∨ (Rect.block (s := S4096x1024) S512x1024.size (cc4_transform_2 i) (hinb4_2 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v32) S1x1024x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S1x2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v34) S1x2048x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg3) S1x1x1024x2048.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v35) S1x1024x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v38) S512x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v39) S512x1024.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S2x2048x1024 : Shape := ⟨3, ![2, 2048, 1024]⟩
abbrev S2048x64 : Shape := ⟨2, ![2048, 64]⟩
abbrev S1x1x2048x2048 : Shape := ⟨4, ![1, 1, 2048, 2048]⟩
abbrev S1024x1024 : Shape := ⟨2, ![1024, 1024]⟩
abbrev S2x2048x16x64 : Shape := ⟨4, ![2, 2048, 16, 64]⟩
abbrev S2x16x2048x64 : Shape := ⟨4, ![2, 16, 2048, 64]⟩
abbrev S1x1x2048x64 : Shape := ⟨4, ![1, 1, 2048, 64]⟩
abbrev S2x16x2048x32 : Shape := ⟨4, ![2, 16, 2048, 32]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 63
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2048x64, .f32⟩
  | .hbm, ⟨2, _⟩ => ⟨S2048x64, .f32⟩
  | .hbm, ⟨3, _⟩ => ⟨S1x1x2048x2048, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S2x2048x16x64, .f32⟩
  | .hbm, ⟨12, _⟩ => ⟨S2x16x2048x64, .f32⟩
  | .hbm, ⟨13, _⟩ => ⟨S1x1x2048x64, .f32⟩
  | .hbm, ⟨14, _⟩ => ⟨S2x16x2048x64, .f32⟩
  | .hbm, ⟨15, _⟩ => ⟨S2x16x2048x64, .f32⟩
  | .hbm, ⟨16, _⟩ => ⟨S2x16x2048x32, .f32⟩
  | .hbm, ⟨17, _⟩ => ⟨S2x16x2048x32, .f32⟩
  | .hbm, ⟨18, _⟩ => ⟨S2x16x2048x32, .f32⟩
  | .hbm, ⟨19, _⟩ => ⟨S2x16x2048x64, .f32⟩
  | .hbm, ⟨20, _⟩ => ⟨S1x1x2048x64, .f32⟩
  | .hbm, ⟨21, _⟩ => ⟨S2x16x2048x64, .f32⟩
  | .hbm, ⟨22, _⟩ => ⟨S2x16x2048x64, .f32⟩
  | .hbm, ⟨23, _⟩ => ⟨S2x16x2048x64, .f32⟩
  | .hbm, ⟨24, _⟩ => ⟨S2x2048x16x64, .f32⟩
  | .hbm, ⟨25, _⟩ => ⟨S2x16x2048x64, .f32⟩
  | .hbm, ⟨26, _⟩ => ⟨S1x1x2048x64, .f32⟩
  | .hbm, ⟨27, _⟩ => ⟨S2x16x2048x64, .f32⟩
  | .hbm, ⟨28, _⟩ => ⟨S2x16x2048x64, .f32⟩
  | .hbm, ⟨29, _⟩ => ⟨S2x16x2048x32, .f32⟩
  | .hbm, ⟨30, _⟩ => ⟨S2x16x2048x32, .f32⟩
  | .hbm, ⟨31, _⟩ => ⟨S2x16x2048x32, .f32⟩
  | .hbm, ⟨32, _⟩ => ⟨S2x16x2048x64, .f32⟩
  | .hbm, ⟨33, _⟩ => ⟨S1x1x2048x64, .f32⟩
  | .hbm, ⟨34, _⟩ => ⟨S2x16x2048x64, .f32⟩
  | .hbm, ⟨35, _⟩ => ⟨S2x16x2048x64, .f32⟩
  | .hbm, ⟨36, _⟩ => ⟨S2x16x2048x64, .f32⟩
  | .hbm, ⟨37, _⟩ => ⟨S2x2048x16x64, .f32⟩
  | .hbm, ⟨38, _⟩ => ⟨S2x16x2048x64, .f32⟩
  | .hbm, ⟨39, _⟩ => ⟨S2x16x2048x2048, .f32⟩
  | .hbm, ⟨40, _⟩ => ⟨S_, .f32⟩
  | .hbm, ⟨41, _⟩ => ⟨S2x16x2048x2048, .f32⟩
  | .hbm, ⟨42, _⟩ => ⟨S2x16x2048x2048, .f32⟩
  | .hbm, ⟨43, _⟩ => ⟨S2x16x2048x2048, .f32⟩
  | .hbm, ⟨44, _⟩ => ⟨S2x16x2048x2048, .f32⟩
  | .hbm, ⟨45, _⟩ => ⟨S_, .f32⟩
  | .hbm, ⟨46, _⟩ => ⟨S2x16x2048, .f32⟩
  | .hbm, ⟨47, _⟩ => ⟨S_, .f32⟩
  | .hbm, ⟨48, _⟩ => ⟨S2x16x2048, .f32⟩
  | .hbm, ⟨49, _⟩ => ⟨S2x16x2048, .f32⟩
  | .hbm, ⟨50, _⟩ => ⟨S2x16x2048x1, .f32⟩
  | .hbm, ⟨51, _⟩ => ⟨S2x16x2048x2048, .f32⟩
  | .hbm, ⟨52, _⟩ => ⟨S2x16x2048x2048, .f32⟩
  | .hbm, ⟨53, _⟩ => ⟨S2x16x2048x2048, .f32⟩
  | .hbm, ⟨54, _⟩ => ⟨S_, .f32⟩
  | .hbm, ⟨55, _⟩ => ⟨S2x16x2048, .f32⟩
  | .hbm, ⟨56, _⟩ => ⟨S2x16x2048x1, .f32⟩
  | .hbm, ⟨57, _⟩ => ⟨S2x16x2048x2048, .f32⟩
  | .hbm, ⟨58, _⟩ => ⟨S2x16x2048x2048, .f32⟩
  | .hbm, ⟨59, _⟩ => ⟨S2x16x2048x64, .f32⟩
  | .hbm, ⟨60, _⟩ => ⟨S2x2048x16x64, .f32⟩
  | .hbm, ⟨61, _⟩ => ⟨S2x2048x1024, .f32⟩
  | .hbm, ⟨62, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_0 : Ref sig .tc := ⟨.hbm, 45, rfl⟩
abbrev main_v36 : Ref sig .tc := ⟨.hbm, 46, rfl⟩
abbrev main_cst_1 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_2 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩

abbrev nD : Nat := 1
abbrev τ : Topo := Topo.v7x

variable {F : FTy → Type} [FloatOps F]

class Facts₀ : Prop where
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S2048x64_S1x1x2048x64_2_3 : S2048x64.BroadcastsInDim S1x1x2048x64 (![2, 3] : Fin 2 → Fin S1x1x2048x64.rank)
  bcast_S1x1x2048x64_S2x16x2048x64_0_1_2_3 : S1x1x2048x64.BroadcastsInDim S2x16x2048x64 (![0, 1, 2, 3] : Fin 4 → Fin S2x16x2048x64.rank)
  slices_S2x16x2048x64_S2x16x2048x32_0_0_0_0 : S2x16x2048x64.Slices ![0, 0, 0, 0] S2x16x2048x32
  slices_S2x16x2048x64_S2x16x2048x32_0_0_0_32 : S2x16x2048x64.Slices ![0, 0, 0, 32] S2x16x2048x32
  concatenates_S2x16x2048x32_S2x16x2048x32_S2x16x2048x64_d3 : Shape.Concatenates [S2x16x2048x32, S2x16x2048x32] S2x16x2048x64 3
  bcast_S_S2x16x2048x2048 : S_.BroadcastsInDim S2x16x2048x2048 (![] : Fin 0 → Fin S2x16x2048x2048.rank)
  bcast_S1x1x2048x2048_S2x16x2048x2048_0_1_2_3 : S1x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.RunResult.lean ====
/-
  The idealized kernel program's run with its result named. The program is a fold of nine segments over the
  TensorCore's buffers: host operations, then the three input projections, host operations (head split and the
  rotary embedding), the attention region, host operations (head merge), the output projection, and a last
  reshape. Every weakly fair execution from the launch memory terminates without a fault, and its final memory
  holds, at every unscoped buffer, the contents at the last boundary of that fold. Hence any property of the final
  memory that follows from those contents holds after every execution; in particular the result array ends at the
  last boundary's contents and every argument array ends as launched. The later modules read the fold down to
  the argument arrays.
-/
import proofs.«102168_j58420145160770_1_alg».proof.Proof.Gen.KernelIdeal.Frame

set_option maxRecDepth 16384

noncomputable section

namespace Cert.KernelIdeal.RunResult

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Whatever follows from "every unscoped buffer holds the last boundary's contents" holds of every final memory. -/
theorem run_of_last_boundary {Q : PUnit × MemSt nD τ sig (Elt F) → Prop}
    (hQ : ∀ s : MemSt nD τ sig (Elt F),
      (∀ c : Dev nD, ∀ b ∈ Pipeline.ucRefs τ sig, s.mem (((c : Thread nD τ)).1, b) = W9 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := hQ)

/-- The run: the result array ends at the last boundary's contents, each argument array as launched. -/
theorem run_result : θ_run defs (onTc (τ := τ) (main (F := F))) ⟨m, fun _ => 0, ρ⟩ (fun r => ∀ c : Dev nD,
      r.2.mem ((c.tc : Thread nD τ).loc main_v40) = W9 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_of_last_boundary m ρ fun s h c =>
    ⟨h c _ (mem_uc main_v40 (by decide)),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c)⟩

end Cert.KernelIdeal.RunResult

end
-- ==== Proof.Spec.lean ====
/-
  One self-attention layer as plain functions of arrays over the extended reals.

  `Lin X W` is the matrix product x·Wᵀ of a 4096×1024 array with a 1024×1024 weight: entry (p, q) is the sum
  over k of X(p, k)·W(q, k) — the row p of X against the row q of W.

  `Attn Q K V M` is scaled-dot-product attention over 32 heads of 2048 positions and width 64, with an
  additive mask M shared by all heads. For head g and query position t the score against key position s is
  (Σₑ Q(g,t,e)·K(g,s,e))·c + M(0,0,t,s), with c the single-precision word of 1/8 read exactly. The row's
  weights are the softmax of its 2048 scores — each score minus the row maximum (taken from −∞ and once more
  against −∞), exponentiated, divided by the sum of the row's exponentials — and entry (g, t, d) is the sum over
  s of weight(g,t,s)·V(g,s,d). The float words are kept as words: both programs spell the same ones.
-/
import Idealize.ShloMosaic.PureOps.Ideal
import Idealize.ShloMosaic.Lib.ValueIdx

noncomputable section

open scoped BigOperators

namespace Cert.AttnSpec

open Idealize.ShloMosaic Idealize.ShloMosaic.ValueIdx

/-- Entry (p, q) of x·Wᵀ. -/
def linAt (X : FVec Ideal ⟨2, ![4096, 1024]⟩ .f32) (W : FVec Ideal ⟨2, ![1024, 1024]⟩ .f32)
    (p : Fin 4096) (q : Fin 1024) : EReal :=
  ∑ k : Fin 1024, X (ix2 p k) * W (ix2 q k)

/-- x·Wᵀ as an array. -/
def Lin (X : FVec Ideal ⟨2, ![4096, 1024]⟩ .f32) (W : FVec Ideal ⟨2, ![1024, 1024]⟩ .f32) :
    FVec Ideal ⟨2, ![4096, 1024]⟩ .f32 :=
  fun i => linAt X W (i 0) (i 1)

theorem Lin_ix2 (X : FVec Ideal ⟨2, ![4096, 1024]⟩ .f32) (W : FVec Ideal ⟨2, ![1024, 1024]⟩ .f32)
    (p : Fin 4096) (q : Fin 1024) : Lin X W (ix2 p q) = linAt X W p q := rfl

/-- The masked, scaled score of query position `t` against key position `s` in head `g`. -/
def scoreAt (Q K : FVec Ideal ⟨3, ![32, 2048, 64]⟩ .f32) (M : FVec Ideal ⟨4, ![1, 1, 2048, 2048]⟩ .f32)
    (g : Fin 32) (t s : Fin 2048) : EReal :=
  (∑ e : Fin 64, Q (ix3 g t e) * K (ix3 g s e)) * Ideal.ofBits .f32 0x3E000000#32
    + M (ix4 (0 : Fin 1) (0 : Fin 1) t s)

/-- The maximum of row (g, t)'s scores: folded from −∞, and once more against −∞. -/
def rowMaxAt (Q K : FVec Ideal ⟨3, ![32, 2048, 64]⟩ .f32) (M : FVec Ideal ⟨4, ![1, 1, 2048, 2048]⟩ .f32)
    (g : Fin 32) (t : Fin 2048) : EReal :=
  max (Ideal.ofBits .f32 0xFF800000#32)
    ((Finset.univ : Finset (Fin 2048)).fold max (Ideal.ofBits .f32 0xFF800000#32) (fun s => scoreAt Q K M g t s))

/-- The exponential of a score less its row's maximum. -/
def expAt (Q K : FVec Ideal ⟨3, ![32, 2048, 64]⟩ .f32) (M : FVec Ideal ⟨4, ![1, 1, 2048, 2048]⟩ .f32)
    (g : Fin 32) (t s : Fin 2048) : EReal :=
  Ideal.exp (scoreAt Q K M g t s - rowMaxAt Q K M g t)

/-- The softmax weight of key position `s` in row (g, t). -/
def weightAt (Q K : FVec Ideal ⟨3, ![32, 2048, 64]⟩ .f32) (M : FVec Ideal ⟨4, ![1, 1, 2048, 2048]⟩ .f32)
    (g : Fin 32) (t s : Fin 2048) : EReal :=
  Ideal.div (expAt Q K M g t s) (∑ s' : Fin 2048, expAt Q K M g t s')

/-- Entry (g, t, d) of the attention output: the weights of row (g, t) against column d of the values. -/
def attnAt (Q K V : FVec Ideal ⟨3, ![32, 2048, 64]⟩ .f32) (M : FVec Ideal ⟨4, ![1, 1, 2048, 2048]⟩ .f32)
    (g : Fin 32) (t : Fin 2048) (d : Fin 64) : EReal :=
  ∑ s : Fin 2048, weightAt Q K M g t s * V (ix3 g s d)

/-- The attention output as an array. -/
def Attn (Q K V : FVec Ideal ⟨3, ![32, 2048, 64]⟩ .f32) (M : FVec Ideal ⟨4, ![1, 1, 2048, 2048]⟩ .f32) :
    FVec Ideal ⟨3, ![32, 2048, 64]⟩ .f32 :=
  fun i => attnAt Q K V M (i 0) (i 1) (i 2)

theorem Attn_ix3 (Q K V : FVec Ideal ⟨3, ![32, 2048, 64]⟩ .f32) (M : FVec Ideal ⟨4, ![1, 1, 2048, 2048]⟩ .f32)
    (g : Fin 32) (t : Fin 2048) (d : Fin 64) : Attn Q K V M (ix3 g t d) = attnAt Q K V M g t d := rfl

end Cert.AttnSpec

end
-- ==== Proof.Stages.lean ====
/-
  The layer as one function of its eight argument arrays, built from the two specification pieces (x·Wᵀ and
  attention) and the layout steps between them:
    • a projection flattens the activations [2,2048,1024] to [4096,1024] and multiplies by a weight's transpose;
    • the head split reads a [4096,1024] array as [2,2048,16,64] and swaps the position and head axes;
    • the rotary embedding multiplies by the cosine table spread over batch and head, and adds the half-rotated
      array (the upper half of the last axis negated, then the lower half) times the sine table spread likewise;
    • the 2×16 leading axes are merged to 32 heads for attention and split back after it, the head and position
      axes swapped back, and the heads flattened into [4096,1024] for the output projection, whose result is read
      as [2,2048,1024].
-/
import proofs.«102168_j58420145160770_1_alg».proof.Proof.Gen.KernelIdeal
import proofs.«102168_j58420145160770_1_alg».proof.Proof.Spec

noncomputable section

namespace Cert.KernelIdeal.Stages

open Idealize.ShloMosaic Cert.KernelIdeal Cert.KernelIdeal.Gen Cert.AttnSpec

/-- An f32 array of a given shape over the extended reals. -/
abbrev Arr (S : Shape) : Type := FVec Ideal S .f32

/-- Swap the position and head axes: [2,2048,16,64] → [2,16,2048,64]. -/
def swapHT (y : Arr S2x2048x16x64) : Arr S2x16x2048x64 :=
  transpose S2x16x2048x64 [0, 2, 1, 3] y transposes_S2x2048x16x64_S2x16x2048x64_0_2_1_3

/-- A [2048,64] table spread over batch and head. -/
def spread (t : Arr S2048x64) : Arr S2x16x2048x64 :=
  broadcastInDim S2x16x2048x64 ![0, 1, 2, 3] bcast_S1x1x2048x64_S2x16x2048x64_0_1_2_3
    (broadcastInDim S1x1x2048x64 ![2, 3] bcast_S2048x64_S1x1x2048x64_2_3 t)

/-- The half rotation of the last axis: its upper half negated, then its lower half. -/
def rotateHalf (y : Arr S2x16x2048x64) : Arr S2x16x2048x64 :=
  concatenate S2x16x2048x64 3
    [⟨S2x16x2048x32, Host.negf (F := Ideal) (extractStridedSlice S2x16x2048x32 ![0, 0, 0, 32] y slices_S2x16x2048x64_S2x16x2048x32_0_0_0_32)⟩,
     ⟨S2x16x2048x32, extractStridedSlice S2x16x2048x32 ![0, 0, 0, 0] y slices_S2x16x2048x64_S2x16x2048x32_0_0_0_0⟩]
    concatenates_S2x16x2048x32_S2x16x2048x32_S2x16x2048x64_d3

/-- The rotary embedding: y·cos + rotateHalf(y)·sin. -/
def rope (y : Arr S2x16x2048x64) (cos sin : Arr S2048x64) : Arr S2x16x2048x64 :=
  addf (F := Ideal) (mulf (F := Ideal) y (spread cos)) (mulf (F := Ideal) (rotateHalf y) (spread sin))

/-- The head split of a projection's output. -/
def heads (y : Arr S4096x1024) : Arr S2x16x2048x64 :=
  swapHT (shapeCast S2x2048x16x64 y shapeCasts_S4096x1024_S2x2048x16x64)

/-- Batch and head merged into 32 heads. -/
def merged (y : Arr S2x16x2048x64) : Arr S32x2048x64 :=
  shapeCast S32x2048x64 y shapeCasts_S2x16x2048x64_S32x2048x64

/-- The attention output's heads split back, position and head swapped back, heads flattened: [32,2048,64] → [4096,1024]. -/
def unheads (a : Arr S32x2048x64) : Arr S4096x1024 :=
  shapeCast S4096x1024
    (transpose S2x2048x16x64 [0, 2, 1, 3] (shapeCast S2x16x2048x64 a shapeCasts_S32x2048x64_S2x16x2048x64)
      transposes_S2x16x2048x64_S2x2048x16x64_0_2_1_3)
    shapeCasts_S2x2048x16x64_S4096x1024

/-- A projection of the activations by a weight. -/
def proj (x : Arr S2x2048x1024) (W : Arr S1024x1024) : Arr S4096x1024 :=
  Lin (shapeCast S4096x1024 x shapeCasts_S2x2048x1024_S4096x1024) W

/-- The attention output in the projections' layout. -/
def attended (x : Arr S2x2048x1024) (cos sin : Arr S2048x64) (mask : Arr S1x1x2048x2048) (Wq Wk Wv : Arr S1024x1024) :
    Arr S4096x1024 :=
  unheads (Attn (merged (rope (heads (proj x Wq)) cos sin)) (merged (rope (heads (proj x Wk)) cos sin))
    (merged (heads (proj x Wv))) mask)

/-- The whole layer. -/
def layer (x : Arr S2x2048x1024) (cos sin : Arr S2048x64) (mask : Arr S1x1x2048x2048) (Wq Wk Wv Wo : Arr S1024x1024) :
    Arr S2x2048x1024 :=
  shapeCast S2x2048x1024 (Lin (attended x cos sin mask Wq Wk Wv) Wo) shapeCasts_S4096x1024_S2x2048x1024

end Cert.KernelIdeal.Stages

end
-- ==== Proof.LibTransposedDot.lean ====
/-
  A general lemma file: the matrix product M×K by N×K, the right operand contracted on its LAST axis, read at an entry,
  at the ideal values.

  A `tpu.matmul` into the zero accumulator whose dimension numbers contract the left operand's second axis with the
  right operand's second axis (no batch axis) — the product of a matrix with the transpose of another, as in the
  scores `q · Cᵀ` of an attention head — is, at entry `(i, j)`, the sum over `k : Fin K` of `L (i, k) * R (j, k)`.
  Stated for any dimension record EQUAL to the library's `DotDims.transposedRhs M K N` (a printed program's record
  with these dimension numbers is, by `rfl`), for any extents and operand formats.
-/
import Idealize.ShloMosaic.Lib.ValueIdx
import Idealize.ShloMosaic.PureOps.Ideal.Laws

noncomputable section

open scoped BigOperators

namespace Cert.TransposedDot

open Idealize.ShloMosaic Idealize.ShloMosaic.ValueIdx

variable (M K N : ℕ)

/-- The left operand's index at result index `j` and contraction index `q` has `j`'s row … -/
theorem lhs0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- … and the contraction coordinate as its column. -/
theorem lhs1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's index has `j`'s column as its ROW … -/
theorem rhs0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- … and the contraction coordinate as its column. -/
theorem rhs1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

variable {M K N}

/-- The contraction's sum over its index type is the sum over `k : Fin K` of the operands at `(i, k)` and `(j, k)`. -/
theorem sum_contr {φ₁ φ₂ : FTy} (L : FVec Ideal ⟨2, ![M, K]⟩ φ₁) (R : FVec Ideal ⟨2, ![N, K]⟩ φ₂) (i : Fin M) (j : Fin N) :
    ∑ q : (DotDims.transposedRhs M K N).contr.Idx,
        L ((DotDims.transposedRhs M K N).lhsIdx (ix2 i j) q) * R ((DotDims.transposedRhs M K N).rhsIdx (ix2 i j) q)
      = ∑ k : Fin K, L (ix2 i k) * R (ix2 j k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => exact lhs0 M K N _ _
      | ⟨1, _⟩ => exact (lhs1 M K N _ _).trans hk)
  have er : (DotDims.transposedRhs M K N).rhsIdx (ix2 i j) ((contrEquiv1 (DotDims.transposedRhs M K N) K rfl rfl).symm k) = ix2 j k :=
    funext fun a => Fin.ext (by
      match a with
      | ⟨0, _⟩ => exact rhs0 M K N _ _
      | ⟨1, _⟩ => exact (rhs1 M K N _ _).trans hk)
  rw [el, er]

/-- A `tpu.matmul` with these dimension numbers into the zero splat, read at `(i, j)`. -/
theorem matmul_zero_apply {φ₁ φ₂ : FTy} (d : DotDims ⟨2, ![M, K]⟩ ⟨2, ![N, K]⟩ ⟨2, ![M, N]⟩) (hd : d = DotDims.transposedRhs M K N)
    (prec : Option ContractPrecision) (L : FVec Ideal ⟨2, ![M, K]⟩ φ₁) (R : FVec Ideal ⟨2, ![N, K]⟩ φ₂) (i : Fin M) (j : Fin N) :
    matmul d prec L R (constant (F := Ideal) ⟨2, ![M, N]⟩ .f32 0x00000000#32) (ix2 i j) = ∑ k : Fin K, L (ix2 i k) * R (ix2 j k) := by
  subst hd
  show FloatOps.matmul (DotDims.transposedRhs M K N) prec L R (constant ⟨2, ![M, N]⟩ .f32 0x00000000#32) (ix2 i j) = _
  rw [Ideal.matmul_constant_zero_apply]
  exact sum_contr L R i j

end Cert.TransposedDot

end
-- ==== Proof.LinBody.lean ====
/-
  The body of a linear projection at an entry. The body loads a 512×1024 block of the input and the whole
  1024×1024 weight, narrows both to bfloat16 — the identity on extended reals — and multiplies them into a zero
  accumulator, contracting the second axis of both: entry (p, q) of what it stores is the sum over k of
  block(p, k)·W(q, k). All four projections (queries, keys, values, output) run this same body.
-/
import proofs.«102168_j58420145160770_1_alg».proof.Proof.Gen.KernelIdeal.Skeleton
import proofs.«102168_j58420145160770_1_alg».proof.Proof.LibTransposedDot
import Idealize.ShloMosaic.Lib.Pipeline.Value
import Idealize.ShloMosaic.Lib.ValueIdx

noncomputable section

open scoped BigOperators

namespace Cert.KernelIdeal.LinBody

open Cert.KernelIdeal Cert.KernelIdeal.Gen Idealize.ShloMosaic Idealize.ShloMosaic.ValueIdx

/-- Entry (p, q) of the stored block: row p of the loaded block against row q of the weight. -/
theorem pay_apply (x0 : Vec Ideal S512x1024 .f32) (x3 : Vec Ideal S1024x1024 .f32) (p : Fin 512) (q : Fin 1024) :
    k0_pay1 (F := Ideal) x0 x3 (ix2 p q) = ∑ k : Fin 1024, x0 (ix2 p k) * x3 (ix2 q k) := by
  unfold k0_pay1
  refine (Cert.TransposedDot.matmul_zero_apply (M := 512) (K := 1024) (N := 1024)
    dot_S512x1024_S1024x1024_S512x1024_1_1_0_0_n_n rfl none _ _ p q).trans ?_
  refine Finset.sum_congr rfl fun k _ => ?_
  exact congrArg (· * x3 (ix2 q k)) (congrFun (shapeCast_self x0 shapeCasts_S512x1024_S512x1024) (ix2 p k))

/-- The other three projections' bodies are the same term. -/
theorem pay1_eq (x0 : Vec Ideal S512x1024 .f32) (x3 : Vec Ideal S1024x1024 .f32) : k1_pay1 (F := Ideal) x0 x3 = k0_pay1 x0 x3 := rfl
theorem pay2_eq (x0 : Vec Ideal S512x1024 .f32) (x3 : Vec Ideal S1024x1024 .f32) : k2_pay1 (F := Ideal) x0 x3 = k0_pay1 x0 x3 := rfl
theorem pay4_eq (x0 : Vec Ideal S512x1024 .f32) (x3 : Vec Ideal S1024x1024 .f32) : k4_pay1 (F := Ideal) x0 x3 = k0_pay1 x0 x3 := rfl

end Cert.KernelIdeal.LinBody

end
-- ==== Proof.LinRegion0.lean ====
/-
  What linear projection 0 leaves in its output array. Its grid has 8 points; point t loads rows
  512·t … 512·t+511 of the input (the flattened activations) and the whole weight, and writes back rows 512·t … 512·t+511 of
  the output, each entry (p, q) of the block being the input block's row p against the weight's row q. The eight
  row blocks tile the 4096 rows, so the array after the region is x·Wᵀ of the arrays the region found:
  entry (i, j) is the sum over k of x(i, k)·W(j, k).
-/
import proofs.«102168_j58420145160770_1_alg».proof.Proof.Gen.KernelIdeal.Frame
import proofs.«102168_j58420145160770_1_alg».proof.Proof.Spec
import proofs.«102168_j58420145160770_1_alg».proof.Proof.LinBody
import Idealize.ShloMosaic.Lib.Pipeline.Value
import Idealize.ShloMosaic.Lib.ValueIdx

set_option maxRecDepth 16384

noncomputable section

open scoped BigOperators

namespace Cert.KernelIdeal.LinRegion0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.AttnSpec

variable (V : (c : Dev nD) → (b : Ref sig .tc) → Buf (Elt Ideal) ((c : Thread nD τ).loc b))

theorem zero_off : (![0, 0] : Fin 2 → Nat) = fun _ => 0 := funext fun a => by fin_cases a <;> rfl

/-- The index maps over the grid: the input's and the output's block row is the point, the weight's block is
    always the first, and every block starts at column 0. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of x·Wᵀ of the arrays the region found. -/
theorem flushed_eq (c : Dev nD) (t : Fin cfg0.N) :
    (dat0 V c).flushed 2 t
      = ((cfg0.win 2).blk t).view.read (Elt Ideal) (Lin (V c main_v0) (V c main_arg4)) := by
  show (cfg0.win 2).cut (grid0.coords t) ((dat0 V c).after 2 t) = _
  rw [after0_2]
  unfold out0_2
  rw [View.canon_unit_zero zero_off]
  simp only [View.ld_unit_zero (S := S512x1024) zero_off, View.ld_unit_zero (S := S1024x1024) zero_off]
  obtain ⟨e0, e1, e2, e3, e4, e5⟩ := index_facts t
  funext j
  obtain ⟨p, q, rfl⟩ : ∃ (p : Fin 512) (q : Fin 1024), j = ix2 p q := ⟨j 0, j 1, eq_ix2 j⟩
  show k0_pay1 (iblk0 V c 0 t) (iblk0 V c 1 t) (ix2 p q)
    = Lin (V c main_v0) (V c main_arg4) (((cfg0.win 2).blk t).view.emb (ix2 p q))
  refine (LinBody.pay_apply (iblk0 V c 0 t) (iblk0 V c 1 t) p q).trans ?_
  show _ = linAt (V c main_v0) (V c main_arg4) ((((cfg0.win 2).blk t).view.emb (ix2 p q)) 0) ((((cfg0.win 2).blk t).view.emb (ix2 p q)) 1)
  unfold linAt
  refine Finset.sum_congr rfl fun k _ => ?_
  have hx : ((cfg0.win 0).blk t).view.emb (ix2 p k) = ix2 (((((cfg0.win 2).blk t).view.emb (ix2 p q)) 0 : Fin 4096)) k := by
    funext a; apply Fin.ext
    match a with
    | ⟨0, _⟩ => show win0_0.index t (0 : Fin 2) * 512 + 1 * p.val = win0_2.index t (0 : Fin 2) * 512 + 1 * p.val; omega
    | ⟨1, _⟩ => show win0_0.index t (1 : Fin 2) * 1024 + 1 * k.val = k.val; omega
  have hw : ((cfg0.win 1).blk t).view.emb (ix2 q k) = ix2 (((((cfg0.win 2).blk t).view.emb (ix2 p q)) 1 : Fin 1024)) k := by
    funext a; apply Fin.ext
    match a with
    | ⟨0, _⟩ => show win0_1.index t (0 : Fin 2) * 1024 + 1 * q.val = win0_2.index t (1 : Fin 2) * 1024 + 1 * q.val; omega
    | ⟨1, _⟩ => show win0_1.index t (1 : Fin 2) * 1024 + 1 * k.val = k.val; omega
  exact congrArg₂ (fun (a b : EReal) => a * b)
    (congrArg (V c main_v0 : FVec Ideal S4096x1024 .f32) hx) (congrArg (V c main_arg4 : FVec Ideal S1024x1024 .f32) hw)

/-- An index of the output array is in point `t`'s block iff each coordinate is in the block's range. -/
theorem mem_blk (t : Fin cfg0.N) (i : S4096x1024.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v1).slice (win0_2.rect t)).set ↔ _
  rw [View.set_slice_whole, Rect.mem_set_unit]
  exact Iff.rfl

/-- Every entry of the output lies in the block of the point that is its row divided by 512. -/
theorem cover (i : S4096x1024.Idx) :
    ∃ t : Fin cfg0.N, (cfg0.win 2).flush t = true ∧ i ∈ ((cfg0.win 2).blk t).view.set := by
  have hi0 : (i 0).val < 4096 := (i 0).isLt
  have hi1 : (i 1).val < 1024 := (i 1).isLt
  have hN : (i 0).val / 512 < cfg0.N := by
    show (i 0).val / 512 < grid0.N
    rw [N_0]; omega
  refine ⟨⟨(i 0).val / 512, hN⟩, flush0_2 _, ?_⟩
  rw [mem_blk]
  obtain ⟨-, -, -, -, e4, e5⟩ := index_facts ⟨(i 0).val / 512, hN⟩
  have e4' : win0_2.index ⟨(i 0).val / 512, hN⟩ (0 : Fin 2) = (i 0).val / 512 := e4
  intro a
  match a with
  | ⟨0, _⟩ =>
    show win0_2.index ⟨(i 0).val / 512, hN⟩ (0 : Fin 2) * 512 ≤ (i 0).val ∧ (i 0).val < win0_2.index ⟨(i 0).val / 512, hN⟩ (0 : Fin 2) * 512 + 512
    omega
  | ⟨1, _⟩ =>
    show win0_2.index ⟨(i 0).val / 512, hN⟩ (1 : Fin 2) * 1024 ≤ (i 1).val ∧ (i 1).val < win0_2.index ⟨(i 0).val / 512, hN⟩ (1 : Fin 2) * 1024 + 1024
    omega

/-- The output array after the region: x·Wᵀ of the input and weight arrays as the region found them. -/
theorem final (c : Dev nD) : (dat0 V c).arrAt 2 cfg0.N = Lin (V c main_v0) (V c main_arg4) :=
  (dat0 V c).arrAt_eq_of_cover 2 (Lin (V c main_v0) (V c main_arg4)) (fun t _ => flushed_eq V c t) cover

end Cert.KernelIdeal.LinRegion0

end
-- ==== Proof.LinRegion1.lean ====
/-
  What linear projection 1 leaves in its output array. Its grid has 8 points; point t loads rows
  512·t … 512·t+511 of the input (the flattened activations) and the whole weight, and writes back rows 512·t … 512·t+511 of
  the output, each entry (p, q) of the block being the input block's row p against the weight's row q. The eight
  row blocks tile the 4096 rows, so the array after the region is x·Wᵀ of the arrays the region found:
  entry (i, j) is the sum over k of x(i, k)·W(j, k).
-/
import proofs.«102168_j58420145160770_1_alg».proof.Proof.Gen.KernelIdeal.Frame
import proofs.«102168_j58420145160770_1_alg».proof.Proof.Spec
import proofs.«102168_j58420145160770_1_alg».proof.Proof.LinBody
import Idealize.ShloMosaic.Lib.Pipeline.Value
import Idealize.ShloMosaic.Lib.ValueIdx

set_option maxRecDepth 16384

noncomputable section

open scoped BigOperators

namespace Cert.KernelIdeal.LinRegion1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.AttnSpec

variable (V : (c : Dev nD) → (b : Ref sig .tc) → Buf (Elt Ideal) ((c : Thread nD τ).loc b))

theorem zero_off : (![0, 0] : Fin 2 → Nat) = fun _ => 0 := funext fun a => by fin_cases a <;> rfl

/-- The index maps over the grid: the input's and the output's block row is the point, the weight's block is
    always the first, and every block starts at column 0. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of x·Wᵀ of the arrays the region found. -/
theorem flushed_eq (c : Dev nD) (t : Fin cfg1.N) :
    (dat1 V c).flushed 2 t
      = ((cfg1.win 2).blk t).view.read (Elt Ideal) (Lin (V c main_v0) (V c main_arg5)) := by
  show (cfg1.win 2).cut (grid1.coords t) ((dat1 V c).after 2 t) = _
  rw [after1_2]
  unfold out1_2
  rw [View.canon_unit_zero zero_off]
  simp only [View.ld_unit_zero (S := S512x1024) zero_off, View.ld_unit_zero (S := S1024x1024) zero_off]
  obtain ⟨e0, e1, e2, e3, e4, e5⟩ := index_facts t
  funext j
  obtain ⟨p, q, rfl⟩ : ∃ (p : Fin 512) (q : Fin 1024), j = ix2 p q := ⟨j 0, j 1, eq_ix2 j⟩
  show k0_pay1 (iblk1 V c 0 t) (iblk1 V c 1 t) (ix2 p q)
    = Lin (V c main_v0) (V c main_arg5) (((cfg1.win 2).blk t).view.emb (ix2 p q))
  refine (LinBody.pay_apply (iblk1 V c 0 t) (iblk1 V c 1 t) p q).trans ?_
  show _ = linAt (V c main_v0) (V c main_arg5) ((((cfg1.win 2).blk t).view.emb (ix2 p q)) 0) ((((cfg1.win 2).blk t).view.emb (ix2 p q)) 1)
  unfold linAt
  refine Finset.sum_congr rfl fun k _ => ?_
  have hx : ((cfg1.win 0).blk t).view.emb (ix2 p k) = ix2 (((((cfg1.win 2).blk t).view.emb (ix2 p q)) 0 : Fin 4096)) k := by
    funext a; apply Fin.ext
    match a with
    | ⟨0, _⟩ => show win1_0.index t (0 : Fin 2) * 512 + 1 * p.val = win1_2.index t (0 : Fin 2) * 512 + 1 * p.val; omega
    | ⟨1, _⟩ => show win1_0.index t (1 : Fin 2) * 1024 + 1 * k.val = k.val; omega
  have hw : ((cfg1.win 1).blk t).view.emb (ix2 q k) = ix2 (((((cfg1.win 2).blk t).view.emb (ix2 p q)) 1 : Fin 1024)) k := by
    funext a; apply Fin.ext
    match a with
    | ⟨0, _⟩ => show win1_1.index t (0 : Fin 2) * 1024 + 1 * q.val = win1_2.index t (1 : Fin 2) * 1024 + 1 * q.val; omega
    | ⟨1, _⟩ => show win1_1.index t (1 : Fin 2) * 1024 + 1 * k.val = k.val; omega
  exact congrArg₂ (fun (a b : EReal) => a * b)
    (congrArg (V c main_v0 : FVec Ideal S4096x1024 .f32) hx) (congrArg (V c main_arg5 : FVec Ideal S1024x1024 .f32) hw)

/-- An index of the output array is in point `t`'s block iff each coordinate is in the block's range. -/
theorem mem_blk (t : Fin cfg1.N) (i : S4096x1024.Idx) :
    i ∈ ((cfg1.win 2).blk t).view.set ↔ ∀ a : Fin 2, win1_2.index t a * S512x1024.size a ≤ (i a).val ∧ (i a).val < win1_2.index t a * S512x1024.size a + S512x1024.size a := by
  show i ∈ ((View.whole main_v2).slice (win1_2.rect t)).set ↔ _
  rw [View.set_slice_whole, Rect.mem_set_unit]
  exact Iff.rfl

/-- Every entry of the output lies in the block of the point that is its row divided by 512. -/
theorem cover (i : S4096x1024.Idx) :
    ∃ t : Fin cfg1.N, (cfg1.win 2).flush t = true ∧ i ∈ ((cfg1.win 2).blk t).view.set := by
  have hi0 : (i 0).val < 4096 := (i 0).isLt
  have hi1 : (i 1).val < 1024 := (i 1).isLt
  have hN : (i 0).val / 512 < cfg1.N := by
    show (i 0).val / 512 < grid1.N
    rw [N_1]; omega
  refine ⟨⟨(i 0).val / 512, hN⟩, flush1_2 _, ?_⟩
  rw [mem_blk]
  obtain ⟨-, -, -, -, e4, e5⟩ := index_facts ⟨(i 0).val / 512, hN⟩
  have e4' : win1_2.index ⟨(i 0).val / 512, hN⟩ (0 : Fin 2) = (i 0).val / 512 := e4
  intro a
  match a with
  | ⟨0, _⟩ =>
    show win1_2.index ⟨(i 0).val / 512, hN⟩ (0 : Fin 2) * 512 ≤ (i 0).val ∧ (i 0).val < win1_2.index ⟨(i 0).val / 512, hN⟩ (0 : Fin 2) * 512 + 512
    omega
  | ⟨1, _⟩ =>
    show win1_2.index ⟨(i 0).val / 512, hN⟩ (1 : Fin 2) * 1024 ≤ (i 1).val ∧ (i 1).val < win1_2.index ⟨(i 0).val / 512, hN⟩ (1 : Fin 2) * 1024 + 1024
    omega

/-- The output array after the region: x·Wᵀ of the input and weight arrays as the region found them. -/
theorem final (c : Dev nD) : (dat1 V c).arrAt 2 cfg1.N = Lin (V c main_v0) (V c main_arg5) :=
  (dat1 V c).arrAt_eq_of_cover 2 (Lin (V c main_v0) (V c main_arg5)) (fun t _ => flushed_eq V c t) cover

end Cert.KernelIdeal.LinRegion1

end
-- ==== Proof.LinRegion2.lean ====
/-
  What linear projection 2 leaves in its output array. Its grid has 8 points; point t loads rows
  512·t … 512·t+511 of the input (the flattened activations) and the whole weight, and writes back rows 512·t … 512·t+511 of
  the output, each entry (p, q) of the block being the input block's row p against the weight's row q. The eight
  row blocks tile the 4096 rows, so the array after the region is x·Wᵀ of the arrays the region found:
  entry (i, j) is the sum over k of x(i, k)·W(j, k).
-/
import proofs.«102168_j58420145160770_1_alg».proof.Proof.Gen.KernelIdeal.Frame
import proofs.«102168_j58420145160770_1_alg».proof.Proof.Spec
import proofs.«102168_j58420145160770_1_alg».proof.Proof.LinBody
import Idealize.ShloMosaic.Lib.Pipeline.Value
import Idealize.ShloMosaic.Lib.ValueIdx

set_option maxRecDepth 16384

noncomputable section

open scoped BigOperators

namespace Cert.KernelIdeal.LinRegion2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.AttnSpec

variable (V : (c : Dev nD) → (b : Ref sig .tc) → Buf (Elt Ideal) ((c : Thread nD τ).loc b))

theorem zero_off : (![0, 0] : Fin 2 → Nat) = fun _ => 0 := funext fun a => by fin_cases a <;> rfl

/-- The index maps over the grid: the input's and the output's block row is the point, the weight's block is
    always the first, and every block starts at column 0. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of x·Wᵀ of the arrays the region found. -/
theorem flushed_eq (c : Dev nD) (t : Fin cfg2.N) :
    (dat2 V c).flushed 2 t
      = ((cfg2.win 2).blk t).view.read (Elt Ideal) (Lin (V c main_v0) (V c main_arg6)) := by
  show (cfg2.win 2).cut (grid2.coords t) ((dat2 V c).after 2 t) = _
  rw [after2_2]
  unfold out2_2
  rw [View.canon_unit_zero zero_off]
  simp only [View.ld_unit_zero (S := S512x1024) zero_off, View.ld_unit_zero (S := S1024x1024) zero_off]
  obtain ⟨e0, e1, e2, e3, e4, e5⟩ := index_facts t
  funext j
  obtain ⟨p, q, rfl⟩ : ∃ (p : Fin 512) (q : Fin 1024), j = ix2 p q := ⟨j 0, j 1, eq_ix2 j⟩
  show k0_pay1 (iblk2 V c 0 t) (iblk2 V c 1 t) (ix2 p q)
    = Lin (V c main_v0) (V c main_arg6) (((cfg2.win 2).blk t).view.emb (ix2 p q))
  refine (LinBody.pay_apply (iblk2 V c 0 t) (iblk2 V c 1 t) p q).trans ?_
  show _ = linAt (V c main_v0) (V c main_arg6) ((((cfg2.win 2).blk t).view.emb (ix2 p q)) 0) ((((cfg2.win 2).blk t).view.emb (ix2 p q)) 1)
  unfold linAt
  refine Finset.sum_congr rfl fun k _ => ?_
  have hx : ((cfg2.win 0).blk t).view.emb (ix2 p k) = ix2 (((((cfg2.win 2).blk t).view.emb (ix2 p q)) 0 : Fin 4096)) k := by
    funext a; apply Fin.ext
    match a with
    | ⟨0, _⟩ => show win2_0.index t (0 : Fin 2) * 512 + 1 * p.val = win2_2.index t (0 : Fin 2) * 512 + 1 * p.val; omega
    | ⟨1, _⟩ => show win2_0.index t (1 : Fin 2) * 1024 + 1 * k.val = k.val; omega
  have hw : ((cfg2.win 1).blk t).view.emb (ix2 q k) = ix2 (((((cfg2.win 2).blk t).view.emb (ix2 p q)) 1 : Fin 1024)) k := by
    funext a; apply Fin.ext
    match a with
    | ⟨0, _⟩ => show win2_1.index t (0 : Fin 2) * 1024 + 1 * q.val = win2_2.index t (1 : Fin 2) * 1024 + 1 * q.val; omega
    | ⟨1, _⟩ => show win2_1.index t (1 : Fin 2) * 1024 + 1 * k.val = k.val; omega
  exact congrArg₂ (fun (a b : EReal) => a * b)
    (congrArg (V c main_v0 : FVec Ideal S4096x1024 .f32) hx) (congrArg (V c main_arg6 : FVec Ideal S1024x1024 .f32) hw)

/-- An index of the output array is in point `t`'s block iff each coordinate is in the block's range. -/
theorem mem_blk (t : Fin cfg2.N) (i : S4096x1024.Idx) :
    i ∈ ((cfg2.win 2).blk t).view.set ↔ ∀ a : Fin 2, win2_2.index t a * S512x1024.size a ≤ (i a).val ∧ (i a).val < win2_2.index t a * S512x1024.size a + S512x1024.size a := by
  show i ∈ ((View.whole main_v3).slice (win2_2.rect t)).set ↔ _
  rw [View.set_slice_whole, Rect.mem_set_unit]
  exact Iff.rfl

/-- Every entry of the output lies in the block of the point that is its row divided by 512. -/
theorem cover (i : S4096x1024.Idx) :
    ∃ t : Fin cfg2.N, (cfg2.win 2).flush t = true ∧ i ∈ ((cfg2.win 2).blk t).view.set := by
  have hi0 : (i 0).val < 4096 := (i 0).isLt
  have hi1 : (i 1).val < 1024 := (i 1).isLt
  have hN : (i 0).val / 512 < cfg2.N := by
    show (i 0).val / 512 < grid2.N
    rw [N_2]; omega
  refine ⟨⟨(i 0).val / 512, hN⟩, flush2_2 _, ?_⟩
  rw [mem_blk]
  obtain ⟨-, -, -, -, e4, e5⟩ := index_facts ⟨(i 0).val / 512, hN⟩
  have e4' : win2_2.index ⟨(i 0).val / 512, hN⟩ (0 : Fin 2) = (i 0).val / 512 := e4
  intro a
  match a with
  | ⟨0, _⟩ =>
    show win2_2.index ⟨(i 0).val / 512, hN⟩ (0 : Fin 2) * 512 ≤ (i 0).val ∧ (i 0).val < win2_2.index ⟨(i 0).val / 512, hN⟩ (0 : Fin 2) * 512 + 512
    omega
  | ⟨1, _⟩ =>
    show win2_2.index ⟨(i 0).val / 512, hN⟩ (1 : Fin 2) * 1024 ≤ (i 1).val ∧ (i 1).val < win2_2.index ⟨(i 0).val / 512, hN⟩ (1 : Fin 2) * 1024 + 1024
    omega

/-- The output array after the region: x·Wᵀ of the input and weight arrays as the region found them. -/
theorem final (c : Dev nD) : (dat2 V c).arrAt 2 cfg2.N = Lin (V c main_v0) (V c main_arg6) :=
  (dat2 V c).arrAt_eq_of_cover 2 (Lin (V c main_v0) (V c main_arg6)) (fun t _ => flushed_eq V c t) cover

end Cert.KernelIdeal.LinRegion2

end
-- ==== Proof.LinRegion4.lean ====
/-
  What linear projection 4 leaves in its output array. Its grid has 8 points; point t loads rows
  512·t … 512·t+511 of the input (the attention output with its heads flattened) and the whole weight, and writes back rows 512·t … 512·t+511 of
  the output, each entry (p, q) of the block being the input block's row p against the weight's row q. The eight
  row blocks tile the 4096 rows, so the array after the region is x·Wᵀ of the arrays the region found:
  entry (i, j) is the sum over k of x(i, k)·W(j, k).
-/
import proofs.«102168_j58420145160770_1_alg».proof.Proof.Gen.KernelIdeal.Frame
import proofs.«102168_j58420145160770_1_alg».proof.Proof.Spec
import proofs.«102168_j58420145160770_1_alg».proof.Proof.LinBody
import Idealize.ShloMosaic.Lib.Pipeline.Value
import Idealize.ShloMosaic.Lib.ValueIdx

set_option maxRecDepth 16384

noncomputable section

open scoped BigOperators

namespace Cert.KernelIdeal.LinRegion4

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.AttnSpec

variable (V : (c : Dev nD) → (b : Ref sig .tc) → Buf (Elt Ideal) ((c : Thread nD τ).loc b))

theorem zero_off : (![0, 0] : Fin 2 → Nat) = fun _ => 0 := funext fun a => by fin_cases a <;> rfl

/-- The index maps over the grid: the input's and the output's block row is the point, the weight's block is
    always the first, and every block starts at column 0. -/
theorem index_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of x·Wᵀ of the arrays the region found. -/
theorem flushed_eq (c : Dev nD) (t : Fin cfg4.N) :
    (dat4 V c).flushed 2 t
      = ((cfg4.win 2).blk t).view.read (Elt Ideal) (Lin (V c main_v38) (V c main_arg7)) := by
  show (cfg4.win 2).cut (grid4.coords t) ((dat4 V c).after 2 t) = _
  rw [after4_2]
  unfold out4_2
  rw [View.canon_unit_zero zero_off]
  simp only [View.ld_unit_zero (S := S512x1024) zero_off, View.ld_unit_zero (S := S1024x1024) zero_off]
  obtain ⟨e0, e1, e2, e3, e4, e5⟩ := index_facts t
  funext j
  obtain ⟨p, q, rfl⟩ : ∃ (p : Fin 512) (q : Fin 1024), j = ix2 p q := ⟨j 0, j 1, eq_ix2 j⟩
  show k0_pay1 (iblk4 V c 0 t) (iblk4 V c 1 t) (ix2 p q)
    = Lin (V c main_v38) (V c main_arg7) (((cfg4.win 2).blk t).view.emb (ix2 p q))
  refine (LinBody.pay_apply (iblk4 V c 0 t) (iblk4 V c 1 t) p q).trans ?_
  show _ = linAt (V c main_v38) (V c main_arg7) ((((cfg4.win 2).blk t).view.emb (ix2 p q)) 0) ((((cfg4.win 2).blk t).view.emb (ix2 p q)) 1)
  unfold linAt
  refine Finset.sum_congr rfl fun k _ => ?_
  have hx : ((cfg4.win 0).blk t).view.emb (ix2 p k) = ix2 (((((cfg4.win 2).blk t).view.emb (ix2 p q)) 0 : Fin 4096)) k := by
    funext a; apply Fin.ext
    match a with
    | ⟨0, _⟩ => show win4_0.index t (0 : Fin 2) * 512 + 1 * p.val = win4_2.index t (0 : Fin 2) * 512 + 1 * p.val; omega
    | ⟨1, _⟩ => show win4_0.index t (1 : Fin 2) * 1024 + 1 * k.val = k.val; omega
  have hw : ((cfg4.win 1).blk t).view.emb (ix2 q k) = ix2 (((((cfg4.win 2).blk t).view.emb (ix2 p q)) 1 : Fin 1024)) k := by
    funext a; apply Fin.ext
    match a with
    | ⟨0, _⟩ => show win4_1.index t (0 : Fin 2) * 1024 + 1 * q.val = win4_2.index t (1 : Fin 2) * 1024 + 1 * q.val; omega
    | ⟨1, _⟩ => show win4_1.index t (1 : Fin 2) * 1024 + 1 * k.val = k.val; omega
  exact congrArg₂ (fun (a b : EReal) => a * b)
    (congrArg (V c main_v38 : FVec Ideal S4096x1024 .f32) hx) (congrArg (V c main_arg7 : FVec Ideal S1024x1024 .f32) hw)

/-- An index of the output array is in point `t`'s block iff each coordinate is in the block's range. -/
theorem mem_blk (t : Fin cfg4.N) (i : S4096x1024.Idx) :
    i ∈ ((cfg4.win 2).blk t).view.set ↔ ∀ a : Fin 2, win4_2.index t a * S512x1024.size a ≤ (i a).val ∧ (i a).val < win4_2.index t a * S512x1024.size a + S512x1024.size a := by
  show i ∈ ((View.whole main_v39).slice (win4_2.rect t)).set ↔ _
  rw [View.set_slice_whole, Rect.mem_set_unit]
  exact Iff.rfl

/-- Every entry of the output lies in the block of the point that is its row divided by 512. -/
theorem cover (i : S4096x1024.Idx) :
    ∃ t : Fin cfg4.N, (cfg4.win 2).flush t = true ∧ i ∈ ((cfg4.win 2).blk t).view.set := by
  have hi0 : (i 0).val < 4096 := (i 0).isLt
  have hi1 : (i 1).val < 1024 := (i 1).isLt
  have hN : (i 0).val / 512 < cfg4.N := by
    show (i 0).val / 512 < grid4.N
    rw [N_4]; omega
  refine ⟨⟨(i 0).val / 512, hN⟩, flush4_2 _, ?_⟩
  rw [mem_blk]
  obtain ⟨-, -, -, -, e4, e5⟩ := index_facts ⟨(i 0).val / 512, hN⟩
  have e4' : win4_2.index ⟨(i 0).val / 512, hN⟩ (0 : Fin 2) = (i 0).val / 512 := e4
  intro a
  match a with
  | ⟨0, _⟩ =>
    show win4_2.index ⟨(i 0).val / 512, hN⟩ (0 : Fin 2) * 512 ≤ (i 0).val ∧ (i 0).val < win4_2.index ⟨(i 0).val / 512, hN⟩ (0 : Fin 2) * 512 + 512
    omega
  | ⟨1, _⟩ =>
    show win4_2.index ⟨(i 0).val / 512, hN⟩ (1 : Fin 2) * 1024 ≤ (i 1).val ∧ (i 1).val < win4_2.index ⟨(i 0).val / 512, hN⟩ (1 : Fin 2) * 1024 + 1024
    omega

/-- The output array after the region: x·Wᵀ of the input and weight arrays as the region found them. -/
theorem final (c : Dev nD) : (dat4 V c).arrAt 2 cfg4.N = Lin (V c main_v38) (V c main_arg7) :=
  (dat4 V c).arrAt_eq_of_cover 2 (Lin (V c main_v38) (V c main_arg7)) (fun t _ => flushed_eq V c t) cover

end Cert.KernelIdeal.LinRegion4

end
-- ==== Proof.Fold.lean ====
/-
  The idealized kernel program's fold read down to the argument arrays. Boundary by boundary: the first host
  operation flattens the activations; the three input projections each leave x·Wᵀ in their output array and
  touch nothing else; the host operations between them and attention split the heads, apply the rotary embedding
  to queries and keys, and merge batch and head; the attention region leaves the attention of those three arrays
  under the mask; the next host operations undo the head layout; the output projection leaves x·Wᵀ again; the
  last host operation reads it as [2,2048,1024]. Composed, the result array holds `layer` of the eight
  argument arrays. What the attention region leaves is taken here as a hypothesis, proved in its own module.
-/
import proofs.«102168_j58420145160770_1_alg».proof.Proof.Gen.KernelIdeal.Frame
import proofs.«102168_j58420145160770_1_alg».proof.Proof.Spec
import proofs.«102168_j58420145160770_1_alg».proof.Proof.Stages
import proofs.«102168_j58420145160770_1_alg».proof.Proof.LinRegion0
import proofs.«102168_j58420145160770_1_alg».proof.Proof.LinRegion1
import proofs.«102168_j58420145160770_1_alg».proof.Proof.LinRegion2
import proofs.«102168_j58420145160770_1_alg».proof.Proof.LinRegion4
import Idealize.ShloMosaic.Lib.StableHlo.Run

set_option maxRecDepth 16384

noncomputable section

namespace Cert.KernelIdeal.Fold

open Idealize.ShloMosaic Idealize.ShloMosaic.TcCoe Idealize.ShloMosaic.StableHlo Idealize.SL.Sem
open Cert.KernelIdeal Cert.KernelIdeal.Gen Cert.AttnSpec Cert.KernelIdeal.Stages

variable (m : (ℓ : Loc nD τ sig) → Buf (Elt Ideal) ℓ) (ρ : Dev nD → PrngReg) (c : Dev nD)

/-! ## Before the projections: the activations flattened, the arguments untouched -/

theorem W1_v0 : W1 m ρ c (Proc.devRef .tc main_v0)
    = shapeCast S4096x1024 (m ((c : Thread nD τ).loc main_arg0)) shapeCasts_S2x2048x1024_S4096x1024 := by
  show StableHlo.after hostOps0 (W0 m ρ c) (Proc.devRef .tc main_v0) = _
  after_results; rfl

theorem W1_arg1 : W1 m ρ c (Proc.devRef .tc main_arg1) = m ((c : Thread nD τ).loc main_arg1) := by
  show StableHlo.after hostOps0 (W0 m ρ c) (Proc.devRef .tc main_arg1) = _
  after_results
theorem W1_arg2 : W1 m ρ c (Proc.devRef .tc main_arg2) = m ((c : Thread nD τ).loc main_arg2) := by
  show StableHlo.after hostOps0 (W0 m ρ c) (Proc.devRef .tc main_arg2) = _
  after_results
theorem W1_arg3 : W1 m ρ c (Proc.devRef .tc main_arg3) = m ((c : Thread nD τ).loc main_arg3) := by
  show StableHlo.after hostOps0 (W0 m ρ c) (Proc.devRef .tc main_arg3) = _
  after_results
theorem W1_arg4 : W1 m ρ c (Proc.devRef .tc main_arg4) = m ((c : Thread nD τ).loc main_arg4) := by
  show StableHlo.after hostOps0 (W0 m ρ c) (Proc.devRef .tc main_arg4) = _
  after_results
theorem W1_arg5 : W1 m ρ c (Proc.devRef .tc main_arg5) = m ((c : Thread nD τ).loc main_arg5) := by
  show StableHlo.after hostOps0 (W0 m ρ c) (Proc.devRef .tc main_arg5) = _
  after_results
theorem W1_arg6 : W1 m ρ c (Proc.devRef .tc main_arg6) = m ((c : Thread nD τ).loc main_arg6) := by
  show StableHlo.after hostOps0 (W0 m ρ c) (Proc.devRef .tc main_arg6) = _
  after_results
theorem W1_arg7 : W1 m ρ c (Proc.devRef .tc main_arg7) = m ((c : Thread nD τ).loc main_arg7) := by
  show StableHlo.after hostOps0 (W0 m ρ c) (Proc.devRef .tc main_arg7) = _
  after_results

/-! ## The three input projections -/

/-- A buffer none of the three projections owns keeps its contents through them. -/
theorem W4_of_W1 (b : Ref sig .tc) (h0 : ∀ w, Pipeline.arrRef spec0 w ≠ b) (h1 : ∀ w, Pipeline.arrRef spec1 w ≠ b)
    (h2 : ∀ w, Pipeline.arrRef spec2 w ≠ b) : W4 m ρ c (Proc.devRef .tc b) = W1 m ρ c (Proc.devRef .tc b) :=
  (W4_of_ne m ρ c b h2).trans ((W3_of_ne m ρ c b h1).trans (W2_of_ne m ρ c b h0))

theorem W2_v1 : W2 m ρ c (Proc.devRef .tc main_v1)
    = proj (m ((c : Thread nD τ).loc main_arg0)) (m ((c : Thread nD τ).loc main_arg4)) :=
  ((W2_arr m ρ c 2).trans (LinRegion0.final (V1 m ρ) c)).trans (congrArg₂ Lin (W1_v0 m ρ c) (W1_arg4 m ρ c))

theorem W2_v0 : W2 m ρ c (Proc.devRef .tc main_v0)
    = shapeCast S4096x1024 (m ((c : Thread nD τ).loc main_arg0)) shapeCasts_S2x2048x1024_S4096x1024 :=
  ((W2_arr m ρ c 0).trans (((dat0 (V1 m ρ) c).arrAt_in 0 rfl _).trans (A_eq0 (V1 m ρ) c 0))).trans (W1_v0 m ρ c)

theorem W3_v2 : W3 m ρ c (Proc.devRef .tc main_v2)
    = proj (m ((c : Thread nD τ).loc main_arg0)) (m ((c : Thread nD τ).loc main_arg5)) :=
  ((W3_arr m ρ c 2).trans (LinRegion1.final (V2 m ρ) c)).trans
    (congrArg₂ Lin (W2_v0 m ρ c) ((W2_of_ne m ρ c main_arg5 (by decide)).trans (W1_arg5 m ρ c)))

theorem W3_v0 : W3 m ρ c (Proc.devRef .tc main_v0)
    = shapeCast S4096x1024 (m ((c : Thread nD τ).loc main_arg0)) shapeCasts_S2x2048x1024_S4096x1024 :=
  ((W3_arr m ρ c 0).trans (((dat1 (V2 m ρ) c).arrAt_in 0 rfl _).trans (A_eq1 (V2 m ρ) c 0))).trans (W2_v0 m ρ c)

theorem W4_v3 : W4 m ρ c (Proc.devRef .tc main_v3)
    = proj (m ((c : Thread nD τ).loc main_arg0)) (m ((c : Thread nD τ).loc main_arg6)) :=
  ((W4_arr m ρ c 2).trans (LinRegion2.final (V3 m ρ) c)).trans
    (congrArg₂ Lin (W3_v0 m ρ c)
      ((W3_of_ne m ρ c main_arg6 (by decide)).trans ((W2_of_ne m ρ c main_arg6 (by decide)).trans (W1_arg6 m ρ c))))

theorem W4_v1 : W4 m ρ c (Proc.devRef .tc main_v1)
    = proj (m ((c : Thread nD τ).loc main_arg0)) (m ((c : Thread nD τ).loc main_arg4)) :=
  (W4_of_ne m ρ c main_v1 (by decide)).trans ((W3_of_ne m ρ c main_v1 (by decide)).trans (W2_v1 m ρ c))

theorem W4_v2 : W4 m ρ c (Proc.devRef .tc main_v2)
    = proj (m ((c : Thread nD τ).loc main_arg0)) (m ((c : Thread nD τ).loc main_arg5)) :=
  (W4_of_ne m ρ c main_v2 (by decide)).trans (W3_v2 m ρ c)

theorem W4_arg1 : W4 m ρ c (Proc.devRef .tc main_arg1) = m ((c : Thread nD τ).loc main_arg1) :=
  (W4_of_W1 m ρ c main_arg1 (by decide) (by decide) (by decide)).trans (W1_arg1 m ρ c)
theorem W4_arg2 : W4 m ρ c (Proc.devRef .tc main_arg2) = m ((c : Thread nD τ).loc main_arg2) :=
  (W4_of_W1 m ρ c main_arg2 (by decide) (by decide) (by decide)).trans (W1_arg2 m ρ c)
theorem W4_arg3 : W4 m ρ c (Proc.devRef .tc main_arg3) = m ((c : Thread nD τ).loc main_arg3) :=
  (W4_of_W1 m ρ c main_arg3 (by decide) (by decide) (by decide)).trans (W1_arg3 m ρ c)
theorem W4_arg7 : W4 m ρ c (Proc.devRef .tc main_arg7) = m ((c : Thread nD τ).loc main_arg7) :=
  (W4_of_W1 m ρ c main_arg7 (by decide) (by decide) (by decide)).trans (W1_arg7 m ρ c)

/-! ## Head split, rotary embedding, head merge -/

theorem W5_v32 : W5 m ρ c (Proc.devRef .tc main_v32)
    = merged (rope (heads (proj (m ((c : Thread nD τ).loc main_arg0)) (m ((c : Thread nD τ).loc main_arg4))))
        (m ((c : Thread nD τ).loc main_arg1)) (m ((c : Thread nD τ).loc main_arg2))) := by
  have e : W5 m ρ c (Proc.devRef .tc main_v32)
      = merged (rope (heads (W4 m ρ c (Proc.devRef .tc main_v1))) (W4 m ρ c (Proc.devRef .tc main_arg1))
          (W4 m ρ c (Proc.devRef .tc main_arg2))) := by
    show StableHlo.after hostOps3 (W4 m ρ c) (Proc.devRef .tc main_v32) = _
    after_results_simp
    rfl
  rw [e, W4_v1, W4_arg1, W4_arg2]

theorem W5_v33 : W5 m ρ c (Proc.devRef .tc main_v33)
    = merged (rope (heads (proj (m ((c : Thread nD τ).loc main_arg0)) (m ((c : Thread nD τ).loc main_arg5))))
        (m ((c : Thread nD τ).loc main_arg1)) (m ((c : Thread nD τ).loc main_arg2))) := by
  have e : W5 m ρ c (Proc.devRef .tc main_v33)
      = merged (rope (heads (W4 m ρ c (Proc.devRef .tc main_v2))) (W4 m ρ c (Proc.devRef .tc main_arg1))
          (W4 m ρ c (Proc.devRef .tc main_arg2))) := by
    show StableHlo.after hostOps3 (W4 m ρ c) (Proc.devRef .tc main_v33) = _
    after_results_simp
    rfl
  rw [e, W4_v2, W4_arg1, W4_arg2]

theorem W5_v34 : W5 m ρ c (Proc.devRef .tc main_v34)
    = merged (heads (proj (m ((c : Thread nD τ).loc main_arg0)) (m ((c : Thread nD τ).loc main_arg6)))) := by
  have e : W5 m ρ c (Proc.devRef .tc main_v34) = merged (heads (W4 m ρ c (Proc.devRef .tc main_v3))) := by
    show StableHlo.after hostOps3 (W4 m ρ c) (Proc.devRef .tc main_v34) = _
    after_results_simp
    rfl
  rw [e, W4_v3]

theorem W5_arg3 : W5 m ρ c (Proc.devRef .tc main_arg3) = m ((c : Thread nD τ).loc main_arg3) := by
  have e : W5 m ρ c (Proc.devRef .tc main_arg3) = W4 m ρ c (Proc.devRef .tc main_arg3) := by
    show StableHlo.after hostOps3 (W4 m ρ c) (Proc.devRef .tc main_arg3) = _
    after_results_simp
  rw [e, W4_arg3]

theorem W5_arg7 : W5 m ρ c (Proc.devRef .tc main_arg7) = m ((c : Thread nD τ).loc main_arg7) := by
  have e : W5 m ρ c (Proc.devRef .tc main_arg7) = W4 m ρ c (Proc.devRef .tc main_arg7) := by
    show StableHlo.after hostOps3 (W4 m ρ c) (Proc.devRef .tc main_arg7) = _
    after_results_simp
  rw [e, W4_arg7]

/-! ## Attention, the head layout undone, the output projection, the last reshape -/

section Tail

variable (hattn : ∀ (V : (c : Dev nD) → (b : Ref sig .tc) → Buf (Elt Ideal) ((c : Thread nD τ).loc b)) (c : Dev nD),
  (dat3 (F := Ideal) V c).arrAt 4 cfg3.N = Attn (V c main_v32) (V c main_v33) (V c main_v34) (V c main_arg3))

include hattn

theorem W6_v35 : W6 m ρ c (Proc.devRef .tc main_v35)
    = Attn (merged (rope (heads (proj (m ((c : Thread nD τ).loc main_arg0)) (m ((c : Thread nD τ).loc main_arg4))))
              (m ((c : Thread nD τ).loc main_arg1)) (m ((c : Thread nD τ).loc main_arg2))))
           (merged (rope (heads (proj (m ((c : Thread nD τ).loc main_arg0)) (m ((c : Thread nD τ).loc main_arg5))))
              (m ((c : Thread nD τ).loc main_arg1)) (m ((c : Thread nD τ).loc main_arg2))))
           (merged (heads (proj (m ((c : Thread nD τ).loc main_arg0)) (m ((c : Thread nD τ).loc main_arg6)))))
           (m ((c : Thread nD τ).loc main_arg3)) := by
  have h := (W6_arr m ρ c 4).trans (hattn (V5 m ρ) c)
  rw [show V5 m ρ c main_v32 = _ from W5_v32 m ρ c, show V5 m ρ c main_v33 = _ from W5_v33 m ρ c,
    show V5 m ρ c main_v34 = _ from W5_v34 m ρ c, show V5 m ρ c main_arg3 = _ from W5_arg3 m ρ c] at h
  exact h

theorem W7_v38 : W7 m ρ c (Proc.devRef .tc main_v38)
    = attended (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  have e : W7 m ρ c (Proc.devRef .tc main_v38) = unheads (W6 m ρ c (Proc.devRef .tc main_v35)) := by
    show StableHlo.after hostOps4 (W6 m ρ c) (Proc.devRef .tc main_v38) = _
    after_results
    rfl
  rw [e, W6_v35 m ρ c hattn]
  rfl

omit hattn in
theorem W7_arg7 : W7 m ρ c (Proc.devRef .tc main_arg7) = m ((c : Thread nD τ).loc main_arg7) := by
  have e : W7 m ρ c (Proc.devRef .tc main_arg7) = W6 m ρ c (Proc.devRef .tc main_arg7) := by
    show StableHlo.after hostOps4 (W6 m ρ c) (Proc.devRef .tc main_arg7) = _
    after_results
  rw [e, W6_of_ne m ρ c main_arg7 (by decide), W5_arg7]

theorem W8_v39 : W8 m ρ c (Proc.devRef .tc main_v39)
    = Lin (attended (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6))) (m ((c : Thread nD τ).loc main_arg7)) :=
  ((W8_arr m ρ c 2).trans (LinRegion4.final (V7 m ρ) c)).trans (congrArg₂ Lin (W7_v38 m ρ c hattn) (W7_arg7 m ρ c))

/-- The result array at the last boundary is the layer of the argument arrays. -/
theorem result : W9 m ρ c (Proc.devRef .tc main_v40)
    = layer (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  have e : W9 m ρ c (Proc.devRef .tc main_v40)
      = shapeCast S2x2048x1024 (W8 m ρ c (Proc.devRef .tc main_v39)) shapeCasts_S4096x1024_S2x2048x1024 := by
    show StableHlo.after hostOps5 (W8 m ρ c) (Proc.devRef .tc main_v40) = _
    after_results
    rfl
  rw [e, W8_v39 m ρ c hattn]
  rfl

end Tail

end Cert.KernelIdeal.Fold

end
-- ==== Proof.LibReshapeTwice.lean ====
/-
  Two shape casts in a row are one: a reshape keeps the row-major order of the elements, so reshaping s to t and
  then t to u reads the same element as reshaping s to u directly. Any three shapes of equal element count, any
  element type.
-/
import Idealize.ShloMosaic.Lib.Pipeline.Value

namespace Cert.ReshapeTwice

open Idealize.ShloMosaic

/-- `shapeCast u (shapeCast t v) = shapeCast u v`. -/
theorem shapeCast_twice {α : Type} {s t u : Shape} (v : s.Idx → α) (h : s.ShapeCasts t) (h' : t.ShapeCasts u)
    (h'' : s.ShapeCasts u) : shapeCast u (shapeCast t v h) h' = shapeCast u v h'' :=
  funext fun i => congrArg v (by
    show Shape.reshapeEquiv _ (Shape.reshapeEquiv _ i) = Shape.reshapeEquiv _ i
    rw [Shape.reshapeEquiv_reshapeEquiv])

end Cert.ReshapeTwice
-- ==== Proof.RefLayer.lean ====
/-
  The reference program's result is the layer of its arguments. Its three input contractions and its output
  contraction are each x·Wᵀ read through two reshapes: entry (b, t, j) of the contraction is the sum over k of
  x(b, t, k)·W(j, k), which is entry (2048·b + t, j) of the flattened product. Its head split and rotary embedding
  are the same operations as the layer's, applied to the same arrays; its attention is the specification's
  (a hypothesis here, proved in its own module); the head layout is undone by the same transpose, and two
  reshapes in a row are one.
-/
import proofs.«102168_j58420145160770_1_alg».proof.Proof.Gen.ReferenceIdeal.Read
import proofs.«102168_j58420145160770_1_alg».proof.Proof.Spec
import proofs.«102168_j58420145160770_1_alg».proof.Proof.Stages
import proofs.«102168_j58420145160770_1_alg».proof.Proof.LibReshapeTwice
import Idealize.ShloMosaic.Lib.Pipeline.Value
import Idealize.ShloMosaic.Lib.ValueIdx

set_option maxRecDepth 16384

noncomputable section

open scoped BigOperators

namespace Cert.ReferenceIdeal.RefLayer

open Idealize.ShloMosaic Idealize.ShloMosaic.ValueIdx Cert.ReferenceIdeal Cert.ReferenceIdeal.Gen Cert.AttnSpec Cert.ReshapeTwice

/-- The host contraction of [2,2048,1024] activations with a weight is the flattened product x·Wᵀ read as
    [2,2048,1024]. -/
theorem contraction_eq_proj (X : (⟨S2x2048x1024, .f32⟩ : BufTy).Contents (Elt Ideal))
    (W : (⟨S1024x1024, .f32⟩ : BufTy).Contents (Elt Ideal))
    (hc : (⟨2, ![4096, 1024]⟩ : Shape).ShapeCasts S2x2048x1024) :
    Read.val_main_v0 (F := Ideal) X W = shapeCast S2x2048x1024 (Cert.KernelIdeal.Stages.proj X W) hc := by
  funext i
  obtain ⟨b, t, j, rfl⟩ : ∃ (b : Fin 2) (t : Fin 2048) (j : Fin 1024), i = ix3 b t j := ⟨i 0, i 1, i 2, eq_ix3 i⟩
  refine (Read.val_main_v0_apply X W (ix3 b t j)).trans ?_
  have hp : b.val * 2048 + t.val < 4096 := by have := b.isLt; have := t.isLt; omega
  refine Eq.trans ?_ (shapeCast_apply (Cert.KernelIdeal.Stages.proj X W) hc (ix3 b t j)
    (ix2 (⟨b.val * 2048 + t.val, hp⟩ : Fin 4096) j) (by
      rw [Shape.rowMajor_val_two, Shape.rowMajor_val_three]; rfl)).symm
  show _ = linAt _ W (⟨b.val * 2048 + t.val, hp⟩ : Fin 4096) j
  unfold linAt
  refine Finset.sum_congr rfl fun k _ => ?_
  refine congrArg₂ (fun a b : EReal => a * b) ?_ ?_
  · refine Eq.trans ?_ (shapeCast_apply X _ (ix2 (⟨b.val * 2048 + t.val, hp⟩ : Fin 4096) k) (ix3 b t k) (by
      rw [Shape.rowMajor_val_two, Shape.rowMajor_val_three]; rfl)).symm
    exact congrArg X (funext fun a => by match a with | ⟨0, _⟩ => rfl | ⟨1, _⟩ => rfl | ⟨2, _⟩ => rfl)
  · exact congrArg W (funext fun a => by match a with | ⟨0, _⟩ => rfl | ⟨1, _⟩ => rfl)

section Layer

variable (x0 : (⟨S2x2048x1024, .f32⟩ : BufTy).Contents (Elt Ideal))
  (x1 x2 : (⟨S2048x64, .f32⟩ : BufTy).Contents (Elt Ideal))
  (x3 : (⟨S1x1x2048x2048, .f32⟩ : BufTy).Contents (Elt Ideal))
  (x4 x5 x6 x7 : (⟨S1024x1024, .f32⟩ : BufTy).Contents (Elt Ideal))

/-- A contraction read as [2,2048,16,64] is the flattened product read so. -/
theorem split_eq (W : (⟨S1024x1024, .f32⟩ : BufTy).Contents (Elt Ideal)) :
    Read.val_main_v3 (F := Ideal) x0 W
      = shapeCast S2x2048x16x64 (Cert.KernelIdeal.Stages.proj x0 W) (by decide) := by
  unfold Read.val_main_v3
  rw [contraction_eq_proj x0 W (by decide)]
  exact shapeCast_twice _ _ _ _

/-- The rotated queries are the layer's. -/
theorem queries_eq : Read.val_main_v15 (F := Ideal) x0 x1 x2 x4
    = Cert.KernelIdeal.Stages.rope (Cert.KernelIdeal.Stages.heads (Cert.KernelIdeal.Stages.proj x0 x4)) x1 x2 := by
  have e : Read.val_main_v15 (F := Ideal) x0 x1 x2 x4
      = Cert.KernelIdeal.Stages.rope (Cert.KernelIdeal.Stages.swapHT (Read.val_main_v3 (F := Ideal) x0 x4)) x1 x2 := rfl
  rw [e, split_eq]
  rfl

/-- The rotated keys are the layer's. -/
theorem keys_eq : Read.val_main_v28 (F := Ideal) x0 x1 x2 x5
    = Cert.KernelIdeal.Stages.rope (Cert.KernelIdeal.Stages.heads (Cert.KernelIdeal.Stages.proj x0 x5)) x1 x2 := by
  have e : Read.val_main_v28 (F := Ideal) x0 x1 x2 x5
      = Cert.KernelIdeal.Stages.rope (Cert.KernelIdeal.Stages.swapHT (Read.val_main_v3 (F := Ideal) x0 x5)) x1 x2 := rfl
  rw [e, split_eq]
  rfl

/-- The values are the layer's. -/
theorem values_eq : Read.val_main_v30 (F := Ideal) x0 x6
    = Cert.KernelIdeal.Stages.heads (Cert.KernelIdeal.Stages.proj x0 x6) := by
  have e : Read.val_main_v30 (F := Ideal) x0 x6
      = Cert.KernelIdeal.Stages.swapHT (Read.val_main_v3 (F := Ideal) x0 x6) := rfl
  rw [e, split_eq]
  rfl

variable (hattn : ∀ (x0 : (⟨S2x2048x1024, .f32⟩ : BufTy).Contents (Elt Ideal))
    (x1 x2 : (⟨S2048x64, .f32⟩ : BufTy).Contents (Elt Ideal)) (x3 : (⟨S1x1x2048x2048, .f32⟩ : BufTy).Contents (Elt Ideal))
    (x4 x5 x6 : (⟨S1024x1024, .f32⟩ : BufTy).Contents (Elt Ideal))
    (hm : S2x16x2048x64.ShapeCasts ⟨3, ![32, 2048, 64]⟩) (hs : (⟨3, ![32, 2048, 64]⟩ : Shape).ShapeCasts S2x16x2048x64),
    Read.val_main_v47 (F := Ideal) x0 x1 x2 x3 x4 x5 x6
      = shapeCast S2x16x2048x64
          (Attn (shapeCast ⟨3, ![32, 2048, 64]⟩ (Read.val_main_v15 (F := Ideal) x0 x1 x2 x4) hm)
                (shapeCast ⟨3, ![32, 2048, 64]⟩ (Read.val_main_v28 (F := Ideal) x0 x1 x2 x5) hm)
                (shapeCast ⟨3, ![32, 2048, 64]⟩ (Read.val_main_v30 (F := Ideal) x0 x6) hm) x3) hs)

include hattn

/-- The attention output with its heads flattened is the layer's. -/
theorem attended_eq :
    shapeCast (⟨2, ![4096, 1024]⟩ : Shape) (Read.val_main_v49 (F := Ideal) x0 x1 x2 x3 x4 x5 x6) (by decide)
      = Cert.KernelIdeal.Stages.attended x0 x1 x2 x3 x4 x5 x6 := by
  unfold Read.val_main_v49
  rw [shapeCast_twice _ _ _ (by decide)]
  unfold Read.val_main_v48
  rw [hattn x0 x1 x2 x3 x4 x5 x6 (by decide) (by decide), queries_eq, keys_eq, values_eq]
  rfl

/-- The reference's result is the layer of its arguments. -/
theorem result_eq : Read.val_main_v50 (F := Ideal) x0 x1 x2 x3 x4 x5 x6 x7
    = Cert.KernelIdeal.Stages.layer x0 x1 x2 x3 x4 x5 x6 x7 := by
  have e : Read.val_main_v50 (F := Ideal) x0 x1 x2 x3 x4 x5 x6 x7
      = Read.val_main_v0 (F := Ideal) (Read.val_main_v49 (F := Ideal) x0 x1 x2 x3 x4 x5 x6) x7 := rfl
  rw [e, contraction_eq_proj _ x7 (by decide)]
  unfold Cert.KernelIdeal.Stages.layer Cert.KernelIdeal.Stages.proj
  rw [← attended_eq x0 x1 x2 x3 x4 x5 x6 hattn]

end Layer

end Cert.ReferenceIdeal.RefLayer

end
-- ==== Proof.Claims.lean ====
/-
  The five claims. The three frames: the two kernel programs by their generated frame certificates, the reference
  by its generated run with the result dropped. The idealization rewrote no operation, so there is nothing to
  preserve. The two idealized programs agree: the kernel program's result array ends at `layer` of its argument
  arrays (its run, then its fold read down to the arguments) and the reference's result is `layer` of its own,
  which agree with the kernel's. The two facts about attention — what the attention region leaves, and what the
  reference's attention operations compute — are taken as hypotheses here and supplied where the claim is stated.
-/
import proofs.«102168_j58420145160770_1_alg».proof.Defs
import proofs.«102168_j58420145160770_1_alg».proof.Proof.Gen.Kernel.Frame
import proofs.«102168_j58420145160770_1_alg».proof.Proof.Gen.KernelIdeal.Frame
import proofs.«102168_j58420145160770_1_alg».proof.Proof.Gen.ReferenceIdeal.Run
import proofs.«102168_j58420145160770_1_alg».proof.Proof.Gen.ReferenceIdeal.Read
import proofs.«102168_j58420145160770_1_alg».proof.Proof.Gen.Pre_finite_inputs
import proofs.«102168_j58420145160770_1_alg».proof.Proof.RunResult
import proofs.«102168_j58420145160770_1_alg».proof.Proof.Fold
import proofs.«102168_j58420145160770_1_alg».proof.Proof.RefLayer

set_option maxRecDepth 16384

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with `layer` of the (agreeing) argument arrays in their result arrays. -/
theorem algebraic
    (hk : ∀ (V : (c : Dev Cert.KernelIdeal.nD) → (b : Ref Cert.KernelIdeal.sig .tc) →
          Buf (Elt Ideal) ((c : Thread Cert.KernelIdeal.nD Cert.KernelIdeal.τ).loc b)) (c : Dev Cert.KernelIdeal.nD),
        (Cert.KernelIdeal.Gen.dat3 (F := Ideal) V c).arrAt 4 Cert.KernelIdeal.cfg3.N
          = Cert.AttnSpec.Attn (V c Cert.KernelIdeal.main_v32) (V c Cert.KernelIdeal.main_v33)
              (V c Cert.KernelIdeal.main_v34) (V c Cert.KernelIdeal.main_arg3))
    (hr : ∀ (x0 : (⟨Cert.ReferenceIdeal.S2x2048x1024, .f32⟩ : BufTy).Contents (Elt Ideal))
        (x1 x2 : (⟨Cert.ReferenceIdeal.S2048x64, .f32⟩ : BufTy).Contents (Elt Ideal))
        (x3 : (⟨Cert.ReferenceIdeal.S1x1x2048x2048, .f32⟩ : BufTy).Contents (Elt Ideal))
        (x4 x5 x6 : (⟨Cert.ReferenceIdeal.S1024x1024, .f32⟩ : BufTy).Contents (Elt Ideal))
        (hm : Cert.ReferenceIdeal.S2x16x2048x64.ShapeCasts ⟨3, ![32, 2048, 64]⟩)
        (hs : (⟨3, ![32, 2048, 64]⟩ : Shape).ShapeCasts Cert.ReferenceIdeal.S2x16x2048x64),
        Cert.ReferenceIdeal.Read.val_main_v47 (F := Ideal) x0 x1 x2 x3 x4 x5 x6
          = shapeCast Cert.ReferenceIdeal.S2x16x2048x64
              (Cert.AttnSpec.Attn
                (shapeCast ⟨3, ![32, 2048, 64]⟩ (Cert.ReferenceIdeal.Read.val_main_v15 (F := Ideal) x0 x1 x2 x4) hm)
                (shapeCast ⟨3, ![32, 2048, 64]⟩ (Cert.ReferenceIdeal.Read.val_main_v28 (F := Ideal) x0 x1 x2 x5) hm)
                (shapeCast ⟨3, ![32, 2048, 64]⟩ (Cert.ReferenceIdeal.Read.val_main_v30 (F := Ideal) x0 x6) hm) x3) hs) :
    Cert.algebraic_KernelIdeal_ReferenceIdeal := by
  intro m ρ m' ρ' _ hagree
  refine ⟨fun c => Cert.KernelIdeal.Stages.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Fold.result m ρ c hk), (h c).2⟩)
      (Cert.KernelIdeal.RunResult.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v50_eq, Cert.ReferenceIdeal.RefLayer.result_eq _ _ _ _ _ _ _ _ hr]
    obtain ⟨a0, a1, a2, a3, a4, a5, a6, a7⟩ := hagree c
    rw [a0, a1, a2, a3, a4, a5, a6, a7]

end Cert.Proof.Claims

end
-- ==== Proof.LibPlainDot.lean ====
/-
  A general lemma file: the plain matrix product M×K by K×N read at an entry, at the ideal values.

  A `tpu.matmul` into the zero accumulator, and the host's `dot_general`, whose dimension numbers contract the left
  operand's second axis with the right operand's first (no batch axis) are, at entry `(i, j)`, the sum over
  `k : Fin K` of `L (i, k) * R (k, j)`. Stated for any dimension record EQUAL to `DotDims.plain M K N` (a printed
  program's record with these dimension numbers is, by `rfl`), for any extents and operand formats.
-/
import Idealize.ShloMosaic.Lib.ValueIdx
import Idealize.ShloMosaic.PureOps.Ideal.Laws

noncomputable section

open scoped BigOperators

namespace Cert.PlainDot

open Idealize.ShloMosaic Idealize.ShloMosaic.ValueIdx

variable (M K N : ℕ)

/-- The left operand's index at result index `j` and contraction index `q` has `j`'s row … -/
theorem lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- … and the contraction coordinate as its column. -/
theorem lhs1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's index has the contraction coordinate as its row … -/
theorem rhs0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- … and `j`'s column. -/
theorem rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

variable {M K N}

/-- The contraction's sum over its index type is the sum over `k : Fin K` of the operands at `(i, k)` and `(k, j)`. -/
theorem sum_contr {φ₁ φ₂ : FTy} (L : FVec Ideal ⟨2, ![M, K]⟩ φ₁) (R : FVec Ideal ⟨2, ![K, N]⟩ φ₂) (i : Fin M) (j : Fin N) :
    ∑ q : (DotDims.plain M K N).contr.Idx,
        L ((DotDims.plain M K N).lhsIdx (ix2 i j) q) * R ((DotDims.plain M K N).rhsIdx (ix2 i j) q)
      = ∑ k : Fin K, L (ix2 i k) * R (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs0 M K N _ _
      | ⟨1, _⟩ => exact (lhs1 M K N _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs0 M K N _ _).trans hk
      | ⟨1, _⟩ => exact rhs1 M K N _ _)
  rw [el, er]

/-- A `tpu.matmul` with these dimension numbers into the zero splat, read at `(i, j)`. -/
theorem matmul_zero_apply {φ₁ φ₂ : FTy} (d : DotDims ⟨2, ![M, K]⟩ ⟨2, ![K, N]⟩ ⟨2, ![M, N]⟩) (hd : d = DotDims.plain M K N)
    (prec : Option ContractPrecision) (L : FVec Ideal ⟨2, ![M, K]⟩ φ₁) (R : FVec Ideal ⟨2, ![K, N]⟩ φ₂) (i : Fin M) (j : Fin N) :
    matmul d prec L R (constant (F := Ideal) ⟨2, ![M, N]⟩ .f32 0x00000000#32) (ix2 i j) = ∑ k : Fin K, L (ix2 i k) * R (ix2 k j) := by
  subst hd
  show FloatOps.matmul (DotDims.plain M K N) prec L R (constant ⟨2, ![M, N]⟩ .f32 0x00000000#32) (ix2 i j) = _
  rw [Ideal.matmul_constant_zero_apply]
  exact sum_contr L R i j

/-- The host's `dot_general` with these dimension numbers, read at `(i, j)`. -/
theorem hostDot_apply {φ₁ φ₂ : FTy} (d : DotDims ⟨2, ![M, K]⟩ ⟨2, ![K, N]⟩ ⟨2, ![M, N]⟩) (hd : d = DotDims.plain M K N)
    (prec : Option ContractPrecision) (L : FVec Ideal ⟨2, ![M, K]⟩ φ₁) (R : FVec Ideal ⟨2, ![K, N]⟩ φ₂) (i : Fin M) (j : Fin N) :
    Host.dotGeneral (F := Ideal) d prec L R (ix2 i j) = ∑ k : Fin K, L (ix2 i k) * R (ix2 k j) := by
  subst hd
  simp only [Host.dotGeneral]
  rw [Ideal.dotGeneral_apply]
  exact sum_contr L R i j

end Cert.PlainDot

end
-- ==== Proof.LibRowMax.lean ====
/-
  A maximum along the rows of a matrix, read at a row.

  A kernel that takes the maximum of an `[a, b]` block along its second axis (the per-row maximum a numerically stable
  softmax subtracts) gets an `[a]` vector whose entry `p` is the maximum over `k` of the block at `(p, k)`, started from
  the accumulator's word. Maximum on the extended reals commutes and associates, so the order of the reduction does not
  matter and the entry is the fold of `max` over the row's coordinates. The lemma says so for any extents, with the indices
  written by coordinates, for a single-precision reduction started from the word of `-∞`; a second lemma says the same of
  a host reduction over the last axis of a rank-4 array, the reference's spelling of the same row maximum.
-/
import Idealize.ShloMosaic.PureOps.Ideal.Laws
import Idealize.ShloMosaic.Lib.ValueIdx

noncomputable section

namespace Cert.RowMax

open Idealize.ShloMosaic Idealize.ShloMosaic.ValueIdx

/-- An `[a, b]` array of single-precision values reduced by maximum along its second axis into `[a]`, starting from the
    word of `-∞`, reads at `p` the fold of `max`, from that word's value, over `k : Fin b` of the array at `(p, k)`. The
    hypothesis on the start word is typed as a printed program spells its proof (the word equal to itself). -/
theorem multiReduction_max_rows_apply {a b : ℕ} (v : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (p : Fin a) :
    multiReduction .maximumf [1] ⟨1, ![a]⟩ v 0xFF800000#32 h hφ hacc (ix1 p)
      = (Finset.univ : Finset (Fin b)).fold max (Ideal.ofBits .f32 0xFF800000#32) (fun k => v (ix2 p k)) := by
  refine (Ideal.multiReduction_maximumf_single v 0xFF800000#32 h hφ hacc (ix1 p)).trans ?_
  refine congrArg (fun f => Finset.fold max (Ideal.ofBits .f32 0xFF800000#32) f (Finset.univ : Finset (Fin b))) ?_
  exact funext fun k => congrArg v (funext fun c => Fin.ext (by
    match c with
    | ⟨0, _⟩ => rfl
    | ⟨1, _⟩ => rfl))

/-- The host's reduction by maximum over the LAST axis of an `[a, b, c, d]` array, from a scalar initial value, reads at
    `(p, q, r)` the fold of `max`, from the initial value, over `k : Fin d` of the array at `(p, q, r, k)`. -/
theorem hostReduce_max_last4_apply {a b c d : ℕ} (x : FVec Ideal ⟨4, ![a, b, c, d]⟩ .f32)
    (init : FVec Ideal ⟨0, ![]⟩ .f32)
    (h' : (⟨4, ![a, b, c, d]⟩ : Shape).ReducesTo [3] ⟨3, ![a, b, c]⟩)
    (h : (⟨4, ![a, b, c, d]⟩ : Shape).Reduces [3] ⟨3, ![a, b, c]⟩) (hu : 0 < (⟨0, ![]⟩ : Shape).numel)
    (p : Fin a) (q : Fin b) (r : Fin c) :
    Host.reduce FloatOps.maximumf x init h' hu (ix3 p q r)
      = (Finset.univ : Finset (Fin d)).fold max (init (Shape.Idx.first hu)) (fun k => x (ix4 p q r k)) := by
  refine (Host.reduce_eq_fold_single FloatOps.maximumf x init h' h hu (ix3 p q r)).trans ?_
  refine congrArg (fun f => Finset.fold max (init (Shape.Idx.first hu)) f (Finset.univ : Finset (Fin d))) ?_
  exact funext fun k => congrArg x (funext fun e => Fin.ext (by
    match e with
    | ⟨0, _⟩ => rfl
    | ⟨1, _⟩ => rfl
    | ⟨2, _⟩ => rfl
    | ⟨3, _⟩ => rfl))

end Cert.RowMax

end
-- ==== Proof.LibRowSums.lean ====
/-
  A sum along the rows of a matrix, read at a row.

  A kernel that reduces a `[a, b]` block along its second axis (a per-row sum: the numerator of a row mean, of a row
  variance, of a row norm) gets an `[a]` vector whose entry `p` is the sum over `k` of the block at `(p, k)`. The lemma
  says so for any extents, with the indices written by coordinates, for a single-precision sum started from the zero
  word.
-/
import Idealize.ShloMosaic.PureOps.Ideal.Laws
import Idealize.ShloMosaic.Lib.ValueIdx

noncomputable section

open scoped BigOperators

namespace Cert.RowSums

open Idealize.ShloMosaic Idealize.ShloMosaic.ValueIdx

/-- An `[a, b]` array of single-precision values summed along its second axis into `[a]`, starting from the zero word,
    reads at `p` the sum over `k : Fin b` of the array at `(p, k)`. The hypothesis on the start word is typed as a printed
    program spells its proof (the word equal to itself). -/
theorem multiReduction_add_rows_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ v 0x00000000#32 h hφ hacc (ix1 p) = ∑ k : Fin b, v (ix2 p k) := by
  refine (Ideal.multiReduction_add_single v 0x00000000#32 h hφ hacc (ix1 p)).trans ?_
  exact Finset.sum_congr rfl fun k _ => congrArg v (funext fun c => Fin.ext (by
    match c with
    | ⟨0, _⟩ => rfl
    | ⟨1, _⟩ => rfl))

end Cert.RowSums

end
-- ==== Proof.LibColumnLayouts.lean ====
/-
  Casts and broadcasts through a TRAILING unit axis, read at an index written by coordinates.

  A reduction that keeps its dimension, or a per-row scalar spread along a row, goes through shapes with a unit axis
  at the END: `[a] → [a, 1] → [a, b]` and `[a, b] → [a, b, 1] → [a, b, c]`. Each lemma below says which entry of the
  operand a cast or broadcast of that family reads, for any extents; the last one is a `[1, 1, c]` row spread over
  both leading axes. All are instances of the library's general reading of a shape cast (same row-major position)
  and of a broadcast (the operand at the trailing coordinates, `0` on its unit axes).
-/
import Idealize.ShloMosaic.Lib.Pipeline.Value
import Idealize.ShloMosaic.Lib.ValueIdx

noncomputable section

namespace Cert.ColumnLayouts

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(p, s, k)`, the operand at `(p, s, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (k : Fin c) :
    broadcastTo ⟨3, ![a, b, c]⟩ v h (ix3 p s k) = v (ix3 p s (0 : Fin 1)) := by
  refine broadcastTo_apply v h (ix3 p s k) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

/-- A `[1, 1, c]` row broadcast to `[a, b, c]` reads, at `(p, s, k)`, the row's entry `k`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (s : Fin b) (k : Fin c) :
    broadcastTo ⟨3, ![a, b, c]⟩ v h (ix3 p s k) = v (ix3 (0 : Fin 1) (0 : Fin 1) k) := by
  refine broadcastTo_apply v h (ix3 p s k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.ColumnLayouts

end
-- ==== Proof.LibBlockLayouts.lean ====
/-
  Casts through two LEADING unit axes, read at an index written by coordinates.

  A kernel whose blocks are `[1, 1, a, b]` slabs of a rank-4 array works on them as `[a, b]` matrices: it casts each
  loaded block `[1, 1, a, b] → [a, b]` and each result back `[a, b] → [1, 1, a, b]`. Both casts keep the row-major
  position, so the matrix entry `(i, j)` is the slab entry `(0, 0, i, j)`. The two lemmas say so for any extents.
-/
import Idealize.ShloMosaic.Lib.Pipeline.Value
import Idealize.ShloMosaic.Lib.ValueIdx

noncomputable section

namespace Cert.BlockLayouts

open Idealize.ShloMosaic Idealize.ShloMosaic.ValueIdx

variable {α : Type}

/-- A `[1, 1, a, b]` slab cast to the matrix `[a, b]` reads, at `(i, j)`, the slab at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (⟨0, Nat.one_pos⟩ : Fin 1) (⟨0, Nat.one_pos⟩ : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A matrix `[a, b]` cast to the slab `[1, 1, a, b]` reads, at `(u, v, i, j)`, the matrix at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

end Cert.BlockLayouts

end
-- ==== Proof.AttnRegion.lean ====
/-
  The attention region's array: what the third pipelined call leaves behind is the specification's attention of the
  arrays it finds.

  First the body's arithmetic read at one entry of its output block: the block's entry (u, r, d) is the sum over the
  key positions s of the softmax weight of (r, s) times the value block at (s, d), where the scores are the query row r
  against the key row s, scaled by one eighth and shifted by the mask, the row maximum is taken from minus infinity (and
  once more against it), and the weights are the exponentials over their row sum. Then the blocks are placed in the
  arrays: grid point (qi, bh) reads the query rows qi*1024 .. qi*1024+1023 of head bh, all keys and values of head bh,
  the mask rows of the same query range, and writes the same rows of head bh; the 64 points cover the output array.
-/
import proofs.«102168_j58420145160770_1_alg».proof.Proof.Gen.KernelIdeal.Frame
import proofs.«102168_j58420145160770_1_alg».proof.Proof.Spec
import proofs.«102168_j58420145160770_1_alg».proof.Proof.LibTransposedDot
import proofs.«102168_j58420145160770_1_alg».proof.Proof.LibPlainDot
import proofs.«102168_j58420145160770_1_alg».proof.Proof.LibRowMax
import proofs.«102168_j58420145160770_1_alg».proof.Proof.LibRowSums
import proofs.«102168_j58420145160770_1_alg».proof.Proof.LibColumnLayouts
import proofs.«102168_j58420145160770_1_alg».proof.Proof.LibBlockLayouts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.AttnRegion

open Cert.KernelIdeal Cert.KernelIdeal.Gen Idealize.ShloMosaic Idealize.ShloMosaic.ValueIdx
open Idealize.ShloMosaic.TcCoe Idealize.SL.Sem
open Idealize.ShloMosaic.Pipeline (Dat)

/-! ## The body's arithmetic at one entry -/

section Payload

variable (x0 : Vec Ideal S1x1024x64 .f32) (x1 x2 : Vec Ideal S1x2048x64 .f32) (x3 : Vec Ideal S1x1x1024x2048 .f32)

/-- The score of query row `r` against key row `s`, over the loaded blocks. -/
def sc (r : Fin 1024) (s : Fin 2048) : EReal :=
  (∑ e : Fin 64, x0 (ix3 (0 : Fin 1) r e) * x1 (ix3 (0 : Fin 1) s e)) * Ideal.ofBits .f32 0x3E000000#32
    + x3 (ix4 (0 : Fin 1) (0 : Fin 1) r s)

/-- The maximum of row `r`'s scores, folded from −∞ and once more against −∞. -/
def mx (r : Fin 1024) : EReal :=
  max (Ideal.ofBits .f32 0xFF800000#32)
    ((Finset.univ : Finset (Fin 2048)).fold max (Ideal.ofBits .f32 0xFF800000#32) (fun s => sc x0 x1 x3 r s))

/-- The exponential of a score less its row's maximum. -/
def ex (r : Fin 1024) (s : Fin 2048) : EReal := Ideal.exp (sc x0 x1 x3 r s - mx x0 x1 x3 r)

/-- The scores as the body computes them: the matrix product of the query block with the transposed key block,
    times the scale, plus the mask block. -/
def scoresV : FVec Ideal S1024x2048 .f32 :=
  addf (mulf (matmul dot_S1024x64_S2048x64_S1024x2048_1_1_0_0_n_n none
      (truncf .bf16 (shapeCast S1024x64 x0 shapeCasts_S1x1024x64_S1024x64) bitsLt_bf16_f32 : FVec Ideal S1024x64 .bf16)
      (truncf .bf16 (shapeCast S2048x64 x1 shapeCasts_S1x2048x64_S2048x64) bitsLt_bf16_f32 : FVec Ideal S2048x64 .bf16)
      (constant S1024x2048 .f32 0x00000000#32))
    (broadcast S1024x2048 (Scalar.ofBits (F := Ideal) .f32 0x3E000000#32)))
    (shapeCast S1024x2048 x3 shapeCasts_S1x1x1024x2048_S1024x2048)

theorem scoresV_apply (r : Fin 1024) (s : Fin 2048) : scoresV x0 x1 x3 (ix2 r s) = sc x0 x1 x3 r s := by
  unfold scoresV sc
  refine congrArg₂ (· + ·) (congrArg₂ (· * ·) ?_ rfl) ?_
  · refine (Cert.TransposedDot.matmul_zero_apply dot_S1024x64_S2048x64_S1024x2048_1_1_0_0_n_n rfl none _ _ r s).trans ?_
    refine Finset.sum_congr rfl fun e _ => ?_
    refine congrArg₂ (· * ·) ?_ ?_
    · exact shapeCast_1ab_ab_apply x0 shapeCasts_S1x1024x64_S1024x64 r e
    · exact shapeCast_1ab_ab_apply x1 shapeCasts_S1x2048x64_S2048x64 s e
  · exact Cert.BlockLayouts.shapeCast_11ab_ab_apply x3 shapeCasts_S1x1x1024x2048_S1024x2048 r s

end Payload

section Payload2

variable (x0 : Vec Ideal S1x1024x64 .f32) (x1 x2 : Vec Ideal S1x2048x64 .f32) (x3 : Vec Ideal S1x1x1024x2048 .f32)

/-- The row maxima as the body computes them: the reduction from −∞ along the keys, and once more against −∞. -/
def rowMaxV : FVec Ideal S1024 .f32 :=
  maximumf (broadcast S1024 (Scalar.ofBits (F := Ideal) .f32 0xFF800000#32))
    (multiReduction .maximumf [1] S1024 (scoresV x0 x1 x3) 0xFF800000#32 reduces_S1024x2048_S1024 (.inl rfl) rfl)

theorem rowMaxV_apply (r : Fin 1024) : rowMaxV x0 x1 x3 (ix1 r) = mx x0 x1 x3 r := by
  unfold rowMaxV mx
  refine (maximumf_apply _ _ (ix1 r)).trans ?_
  refine congrArg₂ max (Ideal.ofBits_def (φ := .f32) 0xFF800000#32) ?_
  refine (Cert.RowMax.multiReduction_max_rows_apply (scoresV x0 x1 x3) reduces_S1024x2048_S1024 (.inl rfl) rfl r).trans ?_
  exact Finset.fold_congr fun s _ => scoresV_apply x0 x1 x3 r s

/-- The exponentials as the body computes them: each score less its row's maximum (spread along the row), exponentiated. -/
def expsV : FVec Ideal S1024x2048 .f32 :=
  exp (subf (scoresV x0 x1 x3)
    (broadcastTo S1024x2048 (shapeCast S1024x1 (rowMaxV x0 x1 x3) shapeCasts_S1024_S1024x1) broadcasts_S1024x1_S1024x2048))

theorem exp_at {s : Shape} {φ : FTy} (a : FVec Ideal s φ) (i : s.Idx) : exp a i = Ideal.exp (a i) := rfl

theorem expsV_apply (r : Fin 1024) (s : Fin 2048) : expsV x0 x1 x3 (ix2 r s) = ex x0 x1 x3 r s := by
  unfold expsV ex
  refine (exp_at _ (ix2 r s)).trans ?_
  refine congrArg Ideal.exp ?_
  refine (subf_apply _ _ (ix2 r s)).trans ?_
  refine congrArg₂ (· - ·) (scoresV_apply x0 x1 x3 r s) ?_
  refine (Cert.ColumnLayouts.broadcastTo_a1_ab_apply _ broadcasts_S1024x1_S1024x2048 r s).trans ?_
  refine (Cert.ColumnLayouts.shapeCast_a_a1_apply (rowMaxV x0 x1 x3) shapeCasts_S1024_S1024x1 r (0 : Fin 1)).trans ?_
  exact rowMaxV_apply x0 x1 x3 r

/-- The row sums of the exponentials, from the zero word. -/
def rowSumV : FVec Ideal S1024 .f32 :=
  multiReduction .add [1] S1024 (expsV x0 x1 x3) 0x00000000#32 reduces_S1024x2048_S1024 (.inl rfl) rfl

theorem rowSumV_apply (r : Fin 1024) : rowSumV x0 x1 x3 (ix1 r) = ∑ s : Fin 2048, ex x0 x1 x3 r s := by
  unfold rowSumV
  refine (Cert.RowSums.multiReduction_add_rows_apply (expsV x0 x1 x3) reduces_S1024x2048_S1024 (.inl rfl) rfl r).trans ?_
  exact Finset.sum_congr rfl fun s _ => expsV_apply x0 x1 x3 r s

/-- The weights: each exponential over its row's sum (spread along the row). -/
def weightsV : FVec Ideal S1024x2048 .f32 :=
  divf (expsV x0 x1 x3)
    (broadcastTo S1024x2048 (shapeCast S1024x1 (rowSumV x0 x1 x3) shapeCasts_S1024_S1024x1) broadcasts_S1024x1_S1024x2048)

theorem weightsV_apply (r : Fin 1024) (s : Fin 2048) :
    weightsV x0 x1 x3 (ix2 r s) = Ideal.div (ex x0 x1 x3 r s) (∑ s' : Fin 2048, ex x0 x1 x3 r s') := by
  unfold weightsV
  refine (divf_apply _ _ (ix2 r s)).trans ?_
  refine congrArg₂ Ideal.div (expsV_apply x0 x1 x3 r s) ?_
  refine (Cert.ColumnLayouts.broadcastTo_a1_ab_apply _ broadcasts_S1024x1_S1024x2048 r s).trans ?_
  refine (Cert.ColumnLayouts.shapeCast_a_a1_apply (rowSumV x0 x1 x3) shapeCasts_S1024_S1024x1 r (0 : Fin 1)).trans ?_
  exact rowSumV_apply x0 x1 x3 r

/-- The output matrix: the weights against the value block. -/
def outV : FVec Ideal S1024x64 .f32 :=
  matmul dot_S1024x2048_S2048x64_S1024x64_1_0_0_1_n_n none
    (truncf .bf16 (weightsV x0 x1 x3) bitsLt_bf16_f32 : FVec Ideal S1024x2048 .bf16)
    (truncf .bf16 (shapeCast S2048x64 x2 shapeCasts_S1x2048x64_S2048x64) bitsLt_bf16_f32 : FVec Ideal S2048x64 .bf16)
    (constant S1024x64 .f32 0x00000000#32)

theorem outV_apply (r : Fin 1024) (d : Fin 64) :
    outV x0 x1 x2 x3 (ix2 r d)
      = ∑ s : Fin 2048, Ideal.div (ex x0 x1 x3 r s) (∑ s' : Fin 2048, ex x0 x1 x3 r s') * x2 (ix3 (0 : Fin 1) s d) := by
  unfold outV
  refine (Cert.PlainDot.matmul_zero_apply dot_S1024x2048_S2048x64_S1024x64_1_0_0_1_n_n rfl none _ _ r d).trans ?_
  refine Finset.sum_congr rfl fun s _ => ?_
  refine congrArg₂ (· * ·) ?_ ?_
  · exact (truncf_apply (weightsV x0 x1 x3) bitsLt_bf16_f32 (ix2 r s)).trans (weightsV_apply x0 x1 x3 r s)
  · exact (truncf_apply _ bitsLt_bf16_f32 (ix2 s d)).trans (shapeCast_1ab_ab_apply x2 shapeCasts_S1x2048x64_S2048x64 s d)

/-- The payload is the output matrix with a leading unit axis added. -/
theorem pay_eq : Gen.k3_pay1 (F := Ideal) x0 x1 x2 x3 = shapeCast S1x1024x64 (outV x0 x1 x2 x3) shapeCasts_S1024x64_S1x1024x64 := rfl

/-- THE PAYLOAD AT AN ENTRY. -/
theorem pay_apply (u : Fin 1) (r : Fin 1024) (d : Fin 64) :
    Gen.k3_pay1 (F := Ideal) x0 x1 x2 x3 (ix3 u r d)
      = ∑ s : Fin 2048, Ideal.div (ex x0 x1 x3 r s) (∑ s' : Fin 2048, ex x0 x1 x3 r s') * x2 (ix3 (0 : Fin 1) s d) := by
  rw [pay_eq]
  refine (shapeCast_ab_1ab_apply (outV x0 x1 x2 x3) shapeCasts_S1024x64_S1x1024x64 u r d).trans ?_
  exact outV_apply x0 x1 x2 x3 r d

end Payload2

/-! ## The blocks' entries as the arrays' -/

section Blocks

/-- Query position `q * 1024 + r`: row `r` of the `q`-th block of query rows. -/
def qrow (q : Fin 2) (r : Fin 1024) : Fin 2048 := ⟨q.val * 1024 + r.val, by omega⟩

variable (Q K W : FVec Ideal ⟨3, ![32, 2048, 64]⟩ .f32) (M : FVec Ideal ⟨4, ![1, 1, 2048, 2048]⟩ .f32)
variable (x0 : Vec Ideal S1x1024x64 .f32) (x1 x2 : Vec Ideal S1x2048x64 .f32) (x3 : Vec Ideal S1x1x1024x2048 .f32)
variable (g : Fin 32) (q : Fin 2)

/-- When the query block is rows `q*1024 ..` of head `g`, the key block head `g` and the mask block the same query
    rows, the block scores are the array's scores. -/
theorem sc_eq (h0 : ∀ r e, x0 (ix3 (0 : Fin 1) r e) = Q (ix3 g (qrow q r) e))
    (h1 : ∀ s e, x1 (ix3 (0 : Fin 1) s e) = K (ix3 g s e))
    (h3 : ∀ r s, x3 (ix4 (0 : Fin 1) (0 : Fin 1) r s) = M (ix4 (0 : Fin 1) (0 : Fin 1) (qrow q r) s))
    (r : Fin 1024) (s : Fin 2048) : sc x0 x1 x3 r s = Cert.AttnSpec.scoreAt Q K M g (qrow q r) s := by
  unfold sc Cert.AttnSpec.scoreAt
  refine congrArg₂ (· + ·) (congrArg (· * Ideal.ofBits .f32 0x3E000000#32) ?_) (h3 r s)
  exact Finset.sum_congr rfl fun e _ => congrArg₂ (· * ·) (h0 r e) (h1 s e)

/-- … the block row maxima the array's … -/
theorem mx_eq (h0 : ∀ r e, x0 (ix3 (0 : Fin 1) r e) = Q (ix3 g (qrow q r) e))
    (h1 : ∀ s e, x1 (ix3 (0 : Fin 1) s e) = K (ix3 g s e))
    (h3 : ∀ r s, x3 (ix4 (0 : Fin 1) (0 : Fin 1) r s) = M (ix4 (0 : Fin 1) (0 : Fin 1) (qrow q r) s))
    (r : Fin 1024) : mx x0 x1 x3 r = Cert.AttnSpec.rowMaxAt Q K M g (qrow q r) := by
  unfold mx Cert.AttnSpec.rowMaxAt
  refine congrArg (max (Ideal.ofBits .f32 0xFF800000#32)) ?_
  exact Finset.fold_congr fun s _ => sc_eq Q K M x0 x1 x3 g q h0 h1 h3 r s

/-- … the block exponentials the array's … -/
theorem ex_eq (h0 : ∀ r e, x0 (ix3 (0 : Fin 1) r e) = Q (ix3 g (qrow q r) e))
    (h1 : ∀ s e, x1 (ix3 (0 : Fin 1) s e) = K (ix3 g s e))
    (h3 : ∀ r s, x3 (ix4 (0 : Fin 1) (0 : Fin 1) r s) = M (ix4 (0 : Fin 1) (0 : Fin 1) (qrow q r) s))
    (r : Fin 1024) (s : Fin 2048) : ex x0 x1 x3 r s = Cert.AttnSpec.expAt Q K M g (qrow q r) s := by
  unfold ex Cert.AttnSpec.expAt
  exact congrArg Ideal.exp (congrArg₂ (· - ·) (sc_eq Q K M x0 x1 x3 g q h0 h1 h3 r s) (mx_eq Q K M x0 x1 x3 g q h0 h1 h3 r))

/-- … and the body's result at `(u, r, d)` is the specification's attention at `(g, q*1024 + r, d)`. -/
theorem pay_eq_attn (h0 : ∀ r e, x0 (ix3 (0 : Fin 1) r e) = Q (ix3 g (qrow q r) e))
    (h1 : ∀ s e, x1 (ix3 (0 : Fin 1) s e) = K (ix3 g s e))
    (h2 : ∀ s d, x2 (ix3 (0 : Fin 1) s d) = W (ix3 g s d))
    (h3 : ∀ r s, x3 (ix4 (0 : Fin 1) (0 : Fin 1) r s) = M (ix4 (0 : Fin 1) (0 : Fin 1) (qrow q r) s))
    (u : Fin 1) (r : Fin 1024) (d : Fin 64) :
    Gen.k3_pay1 (F := Ideal) x0 x1 x2 x3 (ix3 u r d) = Cert.AttnSpec.Attn Q K W M (ix3 g (qrow q r) d) := by
  refine (pay_apply x0 x1 x2 x3 u r d).trans ?_
  refine Eq.trans ?_ (Cert.AttnSpec.Attn_ix3 Q K W M g (qrow q r) d).symm
  unfold Cert.AttnSpec.attnAt Cert.AttnSpec.weightAt
  refine Finset.sum_congr rfl fun s _ => congrArg₂ (· * ·) ?_ (h2 s d)
  refine congrArg₂ Ideal.div (ex_eq Q K M x0 x1 x3 g q h0 h1 h3 r s) ?_
  exact Finset.sum_congr rfl fun s' _ => ex_eq Q K M x0 x1 x3 g q h0 h1 h3 r s'

end Blocks

/-! ## From the blocks to the array -/

section Placement

variable (V : (c : Dev nD) → (b : Ref sig .tc) → Buf (Elt Ideal) ((c : Thread nD τ).loc b))

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The index maps, decided over the grid: the output's block is (head, query block, 0) with the head below 32 and the
    query block below 2; the query window moves with it, the key and value windows follow the head only, the mask window
    the query block only. -/
theorem idx_facts : ∀ t : Fin cfg3.N,
    win3_4.index t (0 : Fin 3) < 32 ∧ win3_4.index t (1 : Fin 3) < 2 ∧ win3_4.index t (2 : Fin 3) = 0
    ∧ win3_0.index t (0 : Fin 3) = win3_4.index t (0 : Fin 3) ∧ win3_0.index t (1 : Fin 3) = win3_4.index t (1 : Fin 3)
    ∧ win3_0.index t (2 : Fin 3) = 0
    ∧ win3_1.index t (0 : Fin 3) = win3_4.index t (0 : Fin 3) ∧ win3_1.index t (1 : Fin 3) = 0 ∧ win3_1.index t (2 : Fin 3) = 0
    ∧ win3_2.index t (0 : Fin 3) = win3_4.index t (0 : Fin 3) ∧ win3_2.index t (1 : Fin 3) = 0 ∧ win3_2.index t (2 : Fin 3) = 0
    ∧ win3_3.index t (0 : Fin 4) = 0 ∧ win3_3.index t (1 : Fin 4) = 0 ∧ win3_3.index t (2 : Fin 4) = win3_4.index t (1 : Fin 3)
    ∧ win3_3.index t (3 : Fin 4) = 0 :=
  (by decide +kernel : ∀ t : Fin grid3.N, _)

/-- Every (head, query block) is some point's. -/
theorem idx_onto : ∀ (g : Fin 32) (q : Fin 2), ∃ t : Fin cfg3.N, win3_4.index t = ![g.val, q.val, 0] :=
  (by decide +kernel : ∀ (g : Fin 32) (q : Fin 2), ∃ t : Fin grid3.N, win3_4.index t = ![g.val, q.val, 0])

/-- The query window's block at point `t` is rows `q*1024 ..` of head `g` of the query array. -/
theorem blk0_apply (c : Dev nD) (t : Fin cfg3.N) (g : Fin 32) (q : Fin 2)
    (e0 : win3_0.index t (0 : Fin 3) = g.val) (e1 : win3_0.index t (1 : Fin 3) = q.val) (e2 : win3_0.index t (2 : Fin 3) = 0)
    (u : Fin 1) (r : Fin 1024) (e : Fin 64) :
    (Gen.iblk3 (F := Ideal) V c 0 t : Vec Ideal S1x1024x64 .f32) (ix3 u r e)
      = (V c main_v32 : FVec Ideal S32x2048x64 .f32) (ix3 g (qrow q r) e) := by
  show (V c main_v32 : FVec Ideal S32x2048x64 .f32) (((cfg3.win 0).blk t).view.emb (ix3 u r e)) = _
  refine congrArg (V c main_v32 : FVec Ideal S32x2048x64 .f32) (funext fun a => Fin.ext ?_)
  match a with
  | ⟨0, _⟩ => show win3_0.index t (0 : Fin 3) * 1 + 1 * u.val = g.val; omega
  | ⟨1, _⟩ => show win3_0.index t (1 : Fin 3) * 1024 + 1 * r.val = q.val * 1024 + r.val; omega
  | ⟨2, _⟩ => show win3_0.index t (2 : Fin 3) * 64 + 1 * e.val = e.val; omega

/-- The key window's block at point `t` is head `g` of the key array. -/
theorem blk1_apply (c : Dev nD) (t : Fin cfg3.N) (g : Fin 32)
    (e0 : win3_1.index t (0 : Fin 3) = g.val) (e1 : win3_1.index t (1 : Fin 3) = 0) (e2 : win3_1.index t (2 : Fin 3) = 0)
    (u : Fin 1) (s : Fin 2048) (e : Fin 64) :
    (Gen.iblk3 (F := Ideal) V c 1 t : Vec Ideal S1x2048x64 .f32) (ix3 u s e)
      = (V c main_v33 : FVec Ideal S32x2048x64 .f32) (ix3 g s e) := by
  show (V c main_v33 : FVec Ideal S32x2048x64 .f32) (((cfg3.win 1).blk t).view.emb (ix3 u s e)) = _
  refine congrArg (V c main_v33 : FVec Ideal S32x2048x64 .f32) (funext fun a => Fin.ext ?_)
  match a with
  | ⟨0, _⟩ => show win3_1.index t (0 : Fin 3) * 1 + 1 * u.val = g.val; omega
  | ⟨1, _⟩ => show win3_1.index t (1 : Fin 3) * 2048 + 1 * s.val = s.val; omega
  | ⟨2, _⟩ => show win3_1.index t (2 : Fin 3) * 64 + 1 * e.val = e.val; omega

/-- The value window's block at point `t` is head `g` of the value array. -/
theorem blk2_apply (c : Dev nD) (t : Fin cfg3.N) (g : Fin 32)
    (e0 : win3_2.index t (0 : Fin 3) = g.val) (e1 : win3_2.index t (1 : Fin 3) = 0) (e2 : win3_2.index t (2 : Fin 3) = 0)
    (u : Fin 1) (s : Fin 2048) (e : Fin 64) :
    (Gen.iblk3 (F := Ideal) V c 2 t : Vec Ideal S1x2048x64 .f32) (ix3 u s e)
      = (V c main_v34 : FVec Ideal S32x2048x64 .f32) (ix3 g s e) := by
  show (V c main_v34 : FVec Ideal S32x2048x64 .f32) (((cfg3.win 2).blk t).view.emb (ix3 u s e)) = _
  refine congrArg (V c main_v34 : FVec Ideal S32x2048x64 .f32) (funext fun a => Fin.ext ?_)
  match a with
  | ⟨0, _⟩ => show win3_2.index t (0 : Fin 3) * 1 + 1 * u.val = g.val; omega
  | ⟨1, _⟩ => show win3_2.index t (1 : Fin 3) * 2048 + 1 * s.val = s.val; omega
  | ⟨2, _⟩ => show win3_2.index t (2 : Fin 3) * 64 + 1 * e.val = e.val; omega

/-- The mask window's block at point `t` is the query rows `q*1024 ..` of the mask. -/
theorem blk3_apply (c : Dev nD) (t : Fin cfg3.N) (q : Fin 2)
    (e0 : win3_3.index t (0 : Fin 4) = 0) (e1 : win3_3.index t (1 : Fin 4) = 0) (e2 : win3_3.index t (2 : Fin 4) = q.val)
    (e3 : win3_3.index t (3 : Fin 4) = 0) (u v : Fin 1) (r : Fin 1024) (s : Fin 2048) :
    (Gen.iblk3 (F := Ideal) V c 3 t : Vec Ideal S1x1x1024x2048 .f32) (ix4 u v r s)
      = (V c main_arg3 : FVec Ideal S1x1x2048x2048 .f32) (ix4 (0 : Fin 1) (0 : Fin 1) (qrow q r) s) := by
  show (V c main_arg3 : FVec Ideal S1x1x2048x2048 .f32) (((cfg3.win 3).blk t).view.emb (ix4 u v r s)) = _
  refine congrArg (V c main_arg3 : FVec Ideal S1x1x2048x2048 .f32) (funext fun a => Fin.ext ?_)
  match a with
  | ⟨0, _⟩ => show win3_3.index t (0 : Fin 4) * 1 + 1 * u.val = 0; omega
  | ⟨1, _⟩ => show win3_3.index t (1 : Fin 4) * 1 + 1 * v.val = 0; omega
  | ⟨2, _⟩ => show win3_3.index t (2 : Fin 4) * 1024 + 1 * r.val = q.val * 1024 + r.val; omega
  | ⟨3, _⟩ => show win3_3.index t (3 : Fin 4) * 2048 + 1 * s.val = s.val; omega

/-- Where the output window's block entry `(u, r, d)` at point `t` sits in the output array. -/
theorem blk4_emb (t : Fin cfg3.N) (g : Fin 32) (q : Fin 2)
    (e0 : win3_4.index t (0 : Fin 3) = g.val) (e1 : win3_4.index t (1 : Fin 3) = q.val) (e2 : win3_4.index t (2 : Fin 3) = 0)
    (u : Fin 1) (r : Fin 1024) (d : Fin 64) :
    ((cfg3.win 4).blk t).view.emb (ix3 u r d) = (ix3 g (qrow q r) d : S32x2048x64.Idx) := by
  funext a; apply Fin.ext
  match a with
  | ⟨0, _⟩ => show win3_4.index t (0 : Fin 3) * 1 + 1 * u.val = g.val; omega
  | ⟨1, _⟩ => show win3_4.index t (1 : Fin 3) * 1024 + 1 * r.val = q.val * 1024 + r.val; omega
  | ⟨2, _⟩ => show win3_4.index t (2 : Fin 3) * 64 + 1 * d.val = d.val; omega

/-- WHAT POINT `t` WRITES BACK is block `t` of the specification's attention of the arrays the region finds. -/
theorem flushed_eq (c : Dev nD) (t : Fin cfg3.N) :
    (Gen.dat3 (F := Ideal) V c).flushed 4 t
      = ((cfg3.win 4).blk t).view.read (Elt Ideal)
          (Cert.AttnSpec.Attn (V c main_v32) (V c main_v33) (V c main_v34) (V c main_arg3)) := by
  show (cfg3.win 4).cut (grid3.coords t) ((Gen.dat3 (F := Ideal) V c).after 4 t) = _
  rw [Gen.after3_4]
  unfold Gen.out3_4
  rw [View.canon_unit_zero hz3]
  simp only [View.ld_unit_zero (S := S1x1024x64) hz3, View.ld_unit_zero (S := S1x2048x64) hz3,
    View.ld_unit_zero (S := S1x1x1024x2048) hz4]
  obtain ⟨b0, b1, b2, e00, e01, e02, e10, e11, e12, e20, e21, e22, e30, e31, e32, e33⟩ := idx_facts t
  funext j
  obtain ⟨u, r, d, rfl⟩ : ∃ (u : Fin 1) (r : Fin 1024) (d : Fin 64), j = (ix3 u r d : S1x1024x64.Idx) :=
    ⟨j 0, j 1, j 2, eq_ix3 (n0 := 1) (n1 := 1024) (n2 := 64) j⟩
  show Gen.k3_pay1 (F := Ideal) (Gen.iblk3 V c 0 t) (Gen.iblk3 V c 1 t) (Gen.iblk3 V c 2 t) (Gen.iblk3 V c 3 t) (ix3 u r d)
      = Cert.AttnSpec.Attn (V c main_v32) (V c main_v33) (V c main_v34) (V c main_arg3)
          (((cfg3.win 4).blk t).view.emb (ix3 u r d))
  refine Eq.trans ?_ (congrArg (Cert.AttnSpec.Attn (V c main_v32) (V c main_v33) (V c main_v34) (V c main_arg3))
    (blk4_emb t ⟨win3_4.index t (0 : Fin 3), b0⟩ ⟨win3_4.index t (1 : Fin 3), b1⟩ rfl rfl b2 u r d).symm)
  exact pay_eq_attn (V c main_v32) (V c main_v33) (V c main_v34) (V c main_arg3)
    (Gen.iblk3 V c 0 t) (Gen.iblk3 V c 1 t) (Gen.iblk3 V c 2 t) (Gen.iblk3 V c 3 t)
    ⟨win3_4.index t (0 : Fin 3), b0⟩ ⟨win3_4.index t (1 : Fin 3), b1⟩
    (fun r e => blk0_apply V c t _ _ e00 e01 e02 (0 : Fin 1) r e)
    (fun s e => blk1_apply V c t _ e10 e11 e12 (0 : Fin 1) s e)
    (fun s e => blk2_apply V c t _ e20 e21 e22 (0 : Fin 1) s e)
    (fun r s => blk3_apply V c t _ e30 e31 e32 e33 (0 : Fin 1) (0 : Fin 1) r s)
    u r d

/-- An index of the output array is in point `t`'s block iff each coordinate is in the block's range on its axis. -/
theorem mem_blk (t : Fin cfg3.N) (i : S32x2048x64.Idx) :
    i ∈ ((cfg3.win 4).blk t).view.set ↔ ∀ a : Fin 3, win3_4.index t a * S1x1024x64.size a ≤ (i a).val
      ∧ (i a).val < win3_4.index t a * S1x1024x64.size a + S1x1024x64.size a := by
  show i ∈ ((View.whole main_v35).slice (win3_4.rect t)).set ↔ _
  rw [View.set_slice_whole, Rect.mem_set_unit]
  exact Iff.rfl

/-- Every index of the output array is in some point's block: entry `(g, p, d)` in the block of head `g` and query
    block `p / 1024`. -/
theorem cover (i : S32x2048x64.Idx) :
    ∃ t : Fin cfg3.N, (cfg3.win 4).flush t = true ∧ i ∈ ((cfg3.win 4).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 1024, by omega⟩
  have q0 : win3_4.index t (0 : Fin 3) = (i 0).val := congrFun ht 0
  have q1 : win3_4.index t (1 : Fin 3) = (i 1).val / 1024 := congrFun ht 1
  have q2 : win3_4.index t (2 : Fin 3) = 0 := congrFun ht 2
  refine ⟨t, Gen.flush3_4 t, ?_⟩
  rw [mem_blk]
  intro a
  match a with
  | ⟨0, _⟩ => show win3_4.index t (0 : Fin 3) * 1 ≤ (i 0).val ∧ (i 0).val < win3_4.index t (0 : Fin 3) * 1 + 1; omega
  | ⟨1, _⟩ => show win3_4.index t (1 : Fin 3) * 1024 ≤ (i 1).val ∧ (i 1).val < win3_4.index t (1 : Fin 3) * 1024 + 1024; omega
  | ⟨2, _⟩ => show win3_4.index t (2 : Fin 3) * 64 ≤ (i 2).val ∧ (i 2).val < win3_4.index t (2 : Fin 3) * 64 + 64; omega

/-- THE ARRAY the attention call leaves behind is the specification's attention of the arrays it finds. -/
theorem attn_final (c : Dev nD) :
    (Gen.dat3 (F := Ideal) V c).arrAt 4 cfg3.N
      = Cert.AttnSpec.Attn (V c main_v32) (V c main_v33) (V c main_v34) (V c main_arg3) :=
  (Gen.dat3 (F := Ideal) V c).arrAt_eq_of_cover 4
    (Cert.AttnSpec.Attn (V c main_v32) (V c main_v33) (V c main_v34) (V c main_arg3))
    (fun t _ => flushed_eq V c t) cover

end Placement

end Cert.KernelIdeal.AttnRegion

end
-- ==== Proof.LibLeadingAxes.lean ====
/-
  Merging the two leading axes of an array into one, and splitting them back, read at an index written by coordinates.

  A program that works on (batch, head) pairs re-lays a [a, b, c, d] array as [a·b, c, d] before its kernel and the result
  back afterwards. Both re-layings keep the row-major position, so entry (g, r, s) of the merged array with g = p·b + q is
  entry (p, q, r, s) of the four-dimensional one, for any extents (the merged extent n is whatever the cast's shape fact
  makes it; only the position arithmetic is used).
-/
import Idealize.ShloMosaic.Lib.Pipeline.Value
import Idealize.ShloMosaic.Lib.ValueIdx

noncomputable section

namespace Cert.LeadingAxes

open Idealize.ShloMosaic Idealize.ShloMosaic.ValueIdx

/-- Merging the two leading axes [a, b, c, d] → [n, c, d] (n = a·b): entry (g, r, s) with g = p·b + q is entry
    (p, q, r, s). -/
theorem merge_apply {α : Type} {a b c d n : ℕ} (x : (⟨4, ![a, b, c, d]⟩ : Shape).Idx → α)
    (hc : (⟨4, ![a, b, c, d]⟩ : Shape).ShapeCasts ⟨3, ![n, c, d]⟩) (p : Fin a) (q : Fin b) (r : Fin c) (s : Fin d)
    (g : Fin n) (hg : g.val = p.val * b + q.val) :
    shapeCast ⟨3, ![n, c, d]⟩ x hc (ix3 g r s) = x (ix4 p q r s) :=
  shapeCast_apply x hc _ _ (by
    rw [Shape.rowMajor_val_four, Shape.rowMajor_val_three]
    show ((p.val * b + q.val) * c + r.val) * d + s.val = (g.val * c + r.val) * d + s.val
    rw [hg])

/-- Splitting the leading axis [n, c, d] → [a, b, c, d] (n = a·b): entry (p, q, r, s) is entry (p·b + q, r, s). -/
theorem split_apply {α : Type} {a b c d n : ℕ} (x : (⟨3, ![n, c, d]⟩ : Shape).Idx → α)
    (hc : (⟨3, ![n, c, d]⟩ : Shape).ShapeCasts ⟨4, ![a, b, c, d]⟩) (p : Fin a) (q : Fin b) (r : Fin c) (s : Fin d)
    (g : Fin n) (hg : g.val = p.val * b + q.val) :
    shapeCast ⟨4, ![a, b, c, d]⟩ x hc (ix4 p q r s) = x (ix3 g r s) :=
  shapeCast_apply x hc _ _ (by
    rw [Shape.rowMajor_val_four, Shape.rowMajor_val_three]
    show (g.val * c + r.val) * d + s.val = ((p.val * b + q.val) * c + r.val) * d + s.val
    rw [hg])

end Cert.LeadingAxes

end
-- ==== Proof.RefAttn.lean ====
/-
  The reference program's attention, read operation by operation, is the specification's Attn.

  The reference holds the rotated queries, the rotated keys and the values as [2, 16, 2048, 64] arrays (batch, head,
  position, width). Its score at (b, h, t, s) is the sum over the width of query (b, h, t, ·) times key (b, h, s, ·),
  times the word of 1/8, plus the mask at (0, 0, t, s); the row maximum at (b, h, t) is the fold of max over s from the
  word of −∞, taken once more against that word; the exponential is of the score less the row maximum; the row sum adds
  the 2048 exponentials to zero; the weight is the exponential divided by the row sum; and the output at (b, h, t, d) is
  the sum over s of the weight times the value at (b, h, s, d). With the two leading axes merged into one head index
  g = b·16 + h these are, one by one, the specification's scoreAt, rowMaxAt, expAt, the sum in weightAt, weightAt and
  attnAt; the three operands stay opaque arrays throughout.
-/
import proofs.«102168_j58420145160770_1_alg».proof.Proof.Gen.ReferenceIdeal.Read
import proofs.«102168_j58420145160770_1_alg».proof.Proof.Spec
import proofs.«102168_j58420145160770_1_alg».proof.Proof.LibRowMax
import proofs.«102168_j58420145160770_1_alg».proof.Proof.LibLeadingAxes

noncomputable section

open scoped BigOperators

namespace Cert.ReferenceIdeal.RefAttn

open Cert.ReferenceIdeal Cert.ReferenceIdeal.Gen Cert.ReferenceIdeal.Read Idealize.ShloMosaic
  Idealize.ShloMosaic.ValueIdx Cert.AttnSpec

/-- The three operands with batch and head merged: 32 heads of 2048 positions and width 64. -/
abbrev S32x2048x64 : Shape := ⟨3, ![32, 2048, 64]⟩

/-- The merged head index of batch b and head h. -/
abbrev head (b : Fin 2) (h : Fin 16) : Fin 32 := ⟨b.val * 16 + h.val, by omega⟩

section

variable (x0 : FVec Ideal S2x2048x1024 .f32) (x1 x2 : FVec Ideal S2048x64 .f32)
  (x3 : FVec Ideal S1x1x2048x2048 .f32) (x4 x5 x6 : FVec Ideal S1024x1024 .f32)
  (hm : S2x16x2048x64.ShapeCasts S32x2048x64)

/-- The queries, the keys and the values with the leading axes merged. -/
abbrev Q3 : FVec Ideal S32x2048x64 .f32 := shapeCast S32x2048x64 (val_main_v15 (F := Ideal) x0 x1 x2 x4) hm
abbrev K3 : FVec Ideal S32x2048x64 .f32 := shapeCast S32x2048x64 (val_main_v28 (F := Ideal) x0 x1 x2 x5) hm
abbrev V3 : FVec Ideal S32x2048x64 .f32 := shapeCast S32x2048x64 (val_main_v30 (F := Ideal) x0 x6) hm

/-- The merged queries at (g, t, e) are the queries at (b, h, t, e). -/
theorem Q3_apply (b : Fin 2) (h : Fin 16) (t : Fin 2048) (e : Fin 64) :
    Q3 x0 x1 x2 x4 hm (ix3 (head b h) t e) = val_main_v15 (F := Ideal) x0 x1 x2 x4 (ix4 b h t e) :=
  Cert.LeadingAxes.merge_apply (val_main_v15 (F := Ideal) x0 x1 x2 x4) hm b h t e (head b h) rfl

theorem K3_apply (b : Fin 2) (h : Fin 16) (t : Fin 2048) (e : Fin 64) :
    K3 x0 x1 x2 x5 hm (ix3 (head b h) t e) = val_main_v28 (F := Ideal) x0 x1 x2 x5 (ix4 b h t e) :=
  Cert.LeadingAxes.merge_apply (val_main_v28 (F := Ideal) x0 x1 x2 x5) hm b h t e (head b h) rfl

theorem V3_apply (b : Fin 2) (h : Fin 16) (t : Fin 2048) (e : Fin 64) :
    V3 x0 x6 hm (ix3 (head b h) t e) = val_main_v30 (F := Ideal) x0 x6 (ix4 b h t e) :=
  Cert.LeadingAxes.merge_apply (val_main_v30 (F := Ideal) x0 x6) hm b h t e (head b h) rfl

/-- The score at (b, h, t, s). -/
theorem score_apply (b : Fin 2) (h : Fin 16) (t s : Fin 2048) :
    val_main_v35 (F := Ideal) x0 x1 x2 x3 x4 x5 (ix4 b h t s)
      = scoreAt (Q3 x0 x1 x2 x4 hm) (K3 x0 x1 x2 x5 hm) x3 (head b h) t s := by
  have e31 : val_main_v31 (F := Ideal) x0 x1 x2 x4 x5 (ix4 b h t s)
      = ∑ e : Fin 64, Q3 x0 x1 x2 x4 hm (ix3 (head b h) t e) * K3 x0 x1 x2 x5 hm (ix3 (head b h) s e) := by
    refine (val_main_v31_apply x0 x1 x2 x4 x5 (ix4 b h t s)).trans ?_
    refine Finset.sum_congr rfl fun e _ => ?_
    have el : lidx_main_v31 (ix4 b h t s) e = ix4 b h t e := funext fun a => Fin.ext (by
      match a with
      | ⟨0, _⟩ => rfl
      | ⟨1, _⟩ => rfl
      | ⟨2, _⟩ => rfl
      | ⟨3, _⟩ => rfl)
    have er : ridx_main_v31 (ix4 b h t s) e = ix4 b h s e := funext fun a => Fin.ext (by
      match a with
      | ⟨0, _⟩ => rfl
      | ⟨1, _⟩ => rfl
      | ⟨2, _⟩ => rfl
      | ⟨3, _⟩ => rfl)
    rw [el, er, Q3_apply, K3_apply]
  have e32 : val_main_v32 (F := Ideal) (ix4 b h t s) = Ideal.ofBits .f32 0x3E000000#32 :=
    val_main_v32_apply (F := Ideal) (ix4 b h t s)
  have e34 : val_main_v34 (F := Ideal) x3 (ix4 b h t s) = x3 (ix4 (0 : Fin 1) (0 : Fin 1) t s) := by
    refine (val_main_v34_apply (F := Ideal) x3 (ix4 b h t s)).trans ?_
    exact congrArg x3 (funext fun a => Fin.ext (by
      match a with
      | ⟨0, _⟩ => rfl
      | ⟨1, _⟩ => rfl
      | ⟨2, _⟩ => rfl
      | ⟨3, _⟩ => rfl))
  show val_main_v31 (F := Ideal) x0 x1 x2 x4 x5 (ix4 b h t s) * val_main_v32 (F := Ideal) (ix4 b h t s)
      + val_main_v34 (F := Ideal) x3 (ix4 b h t s) = _
  rw [e31, e32, e34]
  rfl

/-- The score array's last axis reduces away, leaving (batch, head, position). -/
theorem reduces_d3 : S2x16x2048x2048.Reduces [3] S2x16x2048 := by decide

/-- The reduce by maximum over the last axis, read at (b, h, t): the fold of max over the row from the initial word. -/
theorem rowFold_raw (b : Fin 2) (h : Fin 16) (t : Fin 2048) :
    val_main_v36 (F := Ideal) x0 x1 x2 x3 x4 x5 (ix3 b h t)
      = (Finset.univ : Finset (Fin 2048)).fold max (val_main_cst_0 (F := Ideal) (Shape.Idx.first h_S_))
          (fun s => val_main_v35 (F := Ideal) x0 x1 x2 x3 x4 x5 (ix4 b h t s)) :=
  Cert.RowMax.hostReduce_max_last4_apply (val_main_v35 (F := Ideal) x0 x1 x2 x3 x4 x5)
      (val_main_cst_0 (F := Ideal)) reducesTo_S2x16x2048x2048_S2x16x2048_d3 reduces_d3 h_S_ b h t

/-- The same fold with the initial word read and each entry the specification's score. -/
theorem rowFold_apply (b : Fin 2) (h : Fin 16) (t : Fin 2048) :
    val_main_v36 (F := Ideal) x0 x1 x2 x3 x4 x5 (ix3 b h t)
      = (Finset.univ : Finset (Fin 2048)).fold max (Ideal.ofBits .f32 0xFF800000#32)
          (fun s => scoreAt (Q3 x0 x1 x2 x4 hm) (K3 x0 x1 x2 x5 hm) x3 (head b h) t s) := by
  refine (rowFold_raw x0 x1 x2 x3 x4 x5 b h t).trans ?_
  have ec : val_main_cst_0 (F := Ideal) (Shape.Idx.first h_S_) = Ideal.ofBits .f32 0xFF800000#32 :=
    val_main_cst_0_apply (F := Ideal) (Shape.Idx.first h_S_)
  rw [ec]
  exact Finset.fold_congr (op := max) (b := Ideal.ofBits .f32 0xFF800000#32) (s := (Finset.univ : Finset (Fin 2048)))
    (f := fun s => val_main_v35 (F := Ideal) x0 x1 x2 x3 x4 x5 (ix4 b h t s))
    (g := fun s => scoreAt (Q3 x0 x1 x2 x4 hm) (K3 x0 x1 x2 x5 hm) x3 (head b h) t s)
    (fun s _ => score_apply x0 x1 x2 x3 x4 x5 hm b h t s)

/-- The broadcast word of −∞ at (b, h, t). -/
theorem negInf_apply (b : Fin 2) (h : Fin 16) (t : Fin 2048) :
    val_main_v37 (F := Ideal) (ix3 b h t) = Ideal.ofBits .f32 0xFF800000#32 :=
  val_main_v37_apply (F := Ideal) (ix3 b h t)

/-- The row maximum at (b, h, t). -/
theorem rowMax_apply (b : Fin 2) (h : Fin 16) (t : Fin 2048) :
    val_main_v38 (F := Ideal) x0 x1 x2 x3 x4 x5 (ix3 b h t)
      = rowMaxAt (Q3 x0 x1 x2 x4 hm) (K3 x0 x1 x2 x5 hm) x3 (head b h) t := by
  refine (val_main_v38_apply (F := Ideal) x0 x1 x2 x3 x4 x5 (ix3 b h t)).trans ?_
  refine (Ideal.maximumf_def (φ := .f32) (val_main_v37 (F := Ideal) (ix3 b h t))
    (val_main_v36 (F := Ideal) x0 x1 x2 x3 x4 x5 (ix3 b h t))).trans ?_
  unfold rowMaxAt
  exact congrArg₂ max (negInf_apply b h t) (rowFold_apply x0 x1 x2 x3 x4 x5 hm b h t)

/-- The row maximum broadcast back along the row, at (b, h, t, s). -/
theorem rowMaxB_apply (b : Fin 2) (h : Fin 16) (t s : Fin 2048) :
    val_main_v40 (F := Ideal) x0 x1 x2 x3 x4 x5 (ix4 b h t s)
      = rowMaxAt (Q3 x0 x1 x2 x4 hm) (K3 x0 x1 x2 x5 hm) x3 (head b h) t := by
  refine (val_main_v40_apply (F := Ideal) x0 x1 x2 x3 x4 x5 (ix4 b h t s)).trans ?_
  refine (val_main_v39_apply (F := Ideal) x0 x1 x2 x3 x4 x5 (idx_main_v40 (ix4 b h t s))).trans ?_
  have ei : idx_main_v39 (idx_main_v40 (ix4 b h t s)) = ix3 b h t := funext fun a => Fin.ext (by
    match a with
    | ⟨0, _⟩ => rfl
    | ⟨1, _⟩ => rfl
    | ⟨2, _⟩ => rfl)
  exact (congrArg (val_main_v38 (F := Ideal) x0 x1 x2 x3 x4 x5) ei).trans (rowMax_apply x0 x1 x2 x3 x4 x5 hm b h t)

/-- The exponential at (b, h, t, s). -/
theorem exp_apply (b : Fin 2) (h : Fin 16) (t s : Fin 2048) :
    val_main_v42 (F := Ideal) x0 x1 x2 x3 x4 x5 (ix4 b h t s)
      = expAt (Q3 x0 x1 x2 x4 hm) (K3 x0 x1 x2 x5 hm) x3 (head b h) t s := by
  refine (val_main_v42_apply (F := Ideal) x0 x1 x2 x3 x4 x5 (ix4 b h t s)).trans ?_
  refine (Ideal.hostUnary_exp_def (φ := .f32) (val_main_v41 (F := Ideal) x0 x1 x2 x3 x4 x5 (ix4 b h t s))).trans ?_
  unfold expAt
  refine congrArg Ideal.exp ?_
  refine (val_main_v41_apply (F := Ideal) x0 x1 x2 x3 x4 x5 (ix4 b h t s)).trans ?_
  refine (Ideal.subf_def (φ := .f32) (val_main_v35 (F := Ideal) x0 x1 x2 x3 x4 x5 (ix4 b h t s))
    (val_main_v40 (F := Ideal) x0 x1 x2 x3 x4 x5 (ix4 b h t s))).trans ?_
  exact congrArg₂ (fun u v : EReal => u - v) (score_apply x0 x1 x2 x3 x4 x5 hm b h t s)
    (rowMaxB_apply x0 x1 x2 x3 x4 x5 hm b h t s)

/-- The sum of the row's exponentials at (b, h, t): the zero word plus the 2048 exponentials. -/
theorem rowSum_apply (b : Fin 2) (h : Fin 16) (t : Fin 2048) :
    val_main_v43 (F := Ideal) x0 x1 x2 x3 x4 x5 (ix3 b h t)
      = ∑ s : Fin 2048, expAt (Q3 x0 x1 x2 x4 hm) (K3 x0 x1 x2 x5 hm) x3 (head b h) t s := by
  refine (val_main_v43_apply x0 x1 x2 x3 x4 x5 (ix3 b h t)).trans ?_
  have e0 : val_main_cst_2 (F := Ideal) (Shape.Idx.first h_S_) = 0 :=
    (val_main_cst_2_apply (F := Ideal) (Shape.Idx.first h_S_)).trans
      ((Ideal.ofBits_def (φ := .f32) 0x00000000#32).trans Ideal.ofBits_zero_f32)
  rw [e0, zero_add]
  refine Finset.sum_congr rfl fun s _ => ?_
  have ei : idx_main_v43 (ix3 b h t) s = ix4 b h t s := funext fun a => Fin.ext (by
    match a with
    | ⟨0, _⟩ => rfl
    | ⟨1, _⟩ => rfl
    | ⟨2, _⟩ => rfl
    | ⟨3, _⟩ => rfl)
  exact (congrArg (val_main_v42 (F := Ideal) x0 x1 x2 x3 x4 x5) ei).trans (exp_apply x0 x1 x2 x3 x4 x5 hm b h t s)

/-- The row sum broadcast back along the row, at (b, h, t, s). -/
theorem rowSumB_apply (b : Fin 2) (h : Fin 16) (t s : Fin 2048) :
    val_main_v45 (F := Ideal) x0 x1 x2 x3 x4 x5 (ix4 b h t s)
      = ∑ s' : Fin 2048, expAt (Q3 x0 x1 x2 x4 hm) (K3 x0 x1 x2 x5 hm) x3 (head b h) t s' := by
  refine (val_main_v45_apply (F := Ideal) x0 x1 x2 x3 x4 x5 (ix4 b h t s)).trans ?_
  refine (val_main_v44_apply (F := Ideal) x0 x1 x2 x3 x4 x5 (idx_main_v45 (ix4 b h t s))).trans ?_
  have ei : idx_main_v44 (idx_main_v45 (ix4 b h t s)) = ix3 b h t := funext fun a => Fin.ext (by
    match a with
    | ⟨0, _⟩ => rfl
    | ⟨1, _⟩ => rfl
    | ⟨2, _⟩ => rfl)
  exact (congrArg (val_main_v43 (F := Ideal) x0 x1 x2 x3 x4 x5) ei).trans (rowSum_apply x0 x1 x2 x3 x4 x5 hm b h t)

/-- The softmax weight at (b, h, t, s). -/
theorem weight_apply (b : Fin 2) (h : Fin 16) (t s : Fin 2048) :
    val_main_v46 (F := Ideal) x0 x1 x2 x3 x4 x5 (ix4 b h t s)
      = weightAt (Q3 x0 x1 x2 x4 hm) (K3 x0 x1 x2 x5 hm) x3 (head b h) t s := by
  refine (val_main_v46_apply (F := Ideal) x0 x1 x2 x3 x4 x5 (ix4 b h t s)).trans ?_
  refine (Ideal.hostDivf_def (φ := .f32) (val_main_v42 (F := Ideal) x0 x1 x2 x3 x4 x5 (ix4 b h t s))
    (val_main_v45 (F := Ideal) x0 x1 x2 x3 x4 x5 (ix4 b h t s))).trans ?_
  unfold weightAt
  exact congrArg₂ Ideal.div (exp_apply x0 x1 x2 x3 x4 x5 hm b h t s) (rowSumB_apply x0 x1 x2 x3 x4 x5 hm b h t s)

/-- The output at (b, h, t, d): the row's weights against column d of the values. -/
theorem out_apply (b : Fin 2) (h : Fin 16) (t : Fin 2048) (d : Fin 64) :
    val_main_v47 (F := Ideal) x0 x1 x2 x3 x4 x5 x6 (ix4 b h t d)
      = attnAt (Q3 x0 x1 x2 x4 hm) (K3 x0 x1 x2 x5 hm) (V3 x0 x6 hm) x3 (head b h) t d := by
  refine (val_main_v47_apply x0 x1 x2 x3 x4 x5 x6 (ix4 b h t d)).trans ?_
  unfold attnAt
  refine Finset.sum_congr rfl fun s _ => ?_
  have el : lidx_main_v47 (ix4 b h t d) s = ix4 b h t s := funext fun a => Fin.ext (by
    match a with
    | ⟨0, _⟩ => rfl
    | ⟨1, _⟩ => rfl
    | ⟨2, _⟩ => rfl
    | ⟨3, _⟩ => rfl)
  have er : ridx_main_v47 (ix4 b h t d) s = ix4 b h s d := funext fun a => Fin.ext (by
    match a with
    | ⟨0, _⟩ => rfl
    | ⟨1, _⟩ => rfl
    | ⟨2, _⟩ => rfl
    | ⟨3, _⟩ => rfl)
  exact congrArg₂ (fun u v : EReal => u * v)
    ((congrArg (val_main_v46 (F := Ideal) x0 x1 x2 x3 x4 x5) el).trans (weight_apply x0 x1 x2 x3 x4 x5 hm b h t s))
    ((congrArg (val_main_v30 (F := Ideal) x0 x6) er).trans (V3_apply x0 x6 hm b h s d).symm)

/-- The reference's attention output is the specification's Attn of the merged operands, its leading axis split back
    into batch and head. -/
theorem ref_attn (hs : S32x2048x64.ShapeCasts S2x16x2048x64) :
    val_main_v47 (F := Ideal) x0 x1 x2 x3 x4 x5 x6
      = shapeCast S2x16x2048x64
          (Attn (shapeCast S32x2048x64 (val_main_v15 (F := Ideal) x0 x1 x2 x4) hm)
                (shapeCast S32x2048x64 (val_main_v28 (F := Ideal) x0 x1 x2 x5) hm)
                (shapeCast S32x2048x64 (val_main_v30 (F := Ideal) x0 x6) hm) x3) hs := by
  funext i
  obtain ⟨b, h, t, d, rfl⟩ : ∃ (b : Fin 2) (h : Fin 16) (t : Fin 2048) (d : Fin 64), i = ix4 b h t d :=
    ⟨i 0, i 1, i 2, i 3, eq_ix4 i⟩
  refine (out_apply x0 x1 x2 x3 x4 x5 x6 hm b h t d).trans ?_
  refine ((Attn_ix3 (Q3 x0 x1 x2 x4 hm) (K3 x0 x1 x2 x5 hm) (V3 x0 x6 hm) x3 (head b h) t d).symm).trans ?_
  exact (Cert.LeadingAxes.split_apply
    (Attn (Q3 x0 x1 x2 x4 hm) (K3 x0 x1 x2 x5 hm) (V3 x0 x6 hm) x3) hs b h t d (head b h) rfl).symm

end

end Cert.ReferenceIdeal.RefAttn

end
-- ==== Proof.lean ====
/-
  One self-attention layer — four linear projections, a rotary embedding of queries and keys, masked
  scaled-dot-product attention over 16 heads, for activations [2, 2048, 1024] — computed by a program of five
  TensorCore regions among host layout operations, against a plain host program. Both are the same function of
  the eight argument arrays over the extended reals, index by index (Proof/Stages.lean `layer`, over the two
  specification pieces of Proof/Spec.lean):
    • a projection region tiles the rows into eight blocks of 512 and leaves x·Wᵀ (Proof/LinBody.lean,
      Proof/LinRegion0.lean … LinRegion4.lean); the reference's contraction is the same sum through two reshapes
      (Proof/RefLayer.lean);
    • the attention region's 64 grid points each take 1024 query rows of one head against all 2048 keys, so each
      row's softmax is over its whole row, as in the reference (Proof/AttnRegion.lean, Proof/RefAttn.lean);
    • narrowing to bfloat16 is the identity on extended reals, both programs spell the same float words (1/8, −∞
      and zero), and both multiply and add in the same order, so no algebraic law beyond re-indexing sums is used
      and the finiteness of the inputs is never needed.
  The kernel program's run names its result at the last boundary of its fold (Proof/RunResult.lean), which is
  read down to the arguments (Proof/Fold.lean); the claims are assembled in Proof/Claims.lean.
-/
import proofs.«102168_j58420145160770_1_alg».proof.Defs
import proofs.«102168_j58420145160770_1_alg».proof.Proof.Gen.Kernel
import proofs.«102168_j58420145160770_1_alg».proof.Proof.Gen.Kernel.Skeleton
import proofs.«102168_j58420145160770_1_alg».proof.Proof.Gen.Kernel.Launch
import proofs.«102168_j58420145160770_1_alg».proof.Proof.Gen.Kernel.Points
import proofs.«102168_j58420145160770_1_alg».proof.Proof.Gen.Kernel.Frame
import proofs.«102168_j58420145160770_1_alg».proof.Proof.Gen.KernelIdeal
import proofs.«102168_j58420145160770_1_alg».proof.Proof.Gen.KernelIdeal.Skeleton
import proofs.«102168_j58420145160770_1_alg».proof.Proof.Gen.KernelIdeal.Launch
import proofs.«102168_j58420145160770_1_alg».proof.Proof.Gen.KernelIdeal.Points
import proofs.«102168_j58420145160770_1_alg».proof.Proof.Gen.KernelIdeal.Frame
import proofs.«102168_j58420145160770_1_alg».proof.Proof.Gen.ReferenceIdeal
import proofs.«102168_j58420145160770_1_alg».proof.Proof.Gen.Pre_finite_inputs
import proofs.«102168_j58420145160770_1_alg».proof.Proof.Gen.ReferenceIdeal.Run
import proofs.«102168_j58420145160770_1_alg».proof.Proof.Gen.ReferenceIdeal.Read
import proofs.«102168_j58420145160770_1_alg».proof.Proof.Claims
import proofs.«102168_j58420145160770_1_alg».proof.Proof.AttnRegion
import proofs.«102168_j58420145160770_1_alg».proof.Proof.RefAttn
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves,
    Claims.algebraic (fun V c => Cert.KernelIdeal.AttnRegion.attn_final V c)
      (fun x0 x1 x2 x3 x4 x5 x6 hm hs => Cert.ReferenceIdeal.RefAttn.ref_attn x0 x1 x2 x3 x4 x5 x6 hm hs)⟩

end Cert.Proof

end
